-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x2 : Shape := ⟨2, ![800000, 2]⟩
abbrev S256x64 : Shape := ⟨2, ![256, 64]⟩
abbrev S2x64 : Shape := ⟨2, ![2, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S256x64 : S_.BroadcastsInDim S256x64 (![] : Fin 0 → Fin S256x64.rank)
  reducesTo_S256x64_S_d0_1 : S256x64.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64 .f32) (main_arg6 : FVec F S256x64 .f32) (main_arg7 : FVec F S2x64 .f32) (main_arg8 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x2 .f32) (main_arg3 : FVec F S256x64 .f32) (main_arg4 : FVec F S2x64 .f32) (main_arg5 : FVec F S64 .f32) (main_arg6 : FVec F S256x64 .f32) (main_arg7 : FVec F S2x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x2 .f32 := Host.absf main_arg2
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S2x64 .f32 := Host.absf main_arg4
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x2 : Shape := ⟨2, ![800000, 2]⟩
abbrev S256x64 : Shape := ⟨2, ![256, 64]⟩
abbrev S2x64 : Shape := ⟨2, ![2, 64]⟩
abbrev S64 : Shape := ⟨1, ![64]⟩
abbrev S1x800000 : Shape := ⟨2, ![1, 800000]⟩
abbrev S800000 : Shape := ⟨1, ![800000]⟩
abbrev S800000x64 : Shape := ⟨2, ![800000, 64]⟩
abbrev S10000x2 : Shape := ⟨2, ![10000, 2]⟩
abbrev S10000x64 : Shape := ⟨2, ![10000, 64]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 191
  | .vmem => 40
  | .smem => 0
  | _ => 0

abbrev hbmTy0_0 (i : Nat) : BufTy := match i % 128 with
  | 0 => ⟨S50000x64, .f32⟩
  | 1 => ⟨S2x800000, .i32⟩
  | 2 => ⟨S800000x2, .f32⟩
  | 3 => ⟨S256x64, .f32⟩
  | 4 => ⟨S2x64, .f32⟩
  | 5 => ⟨S64, .f32⟩
  | 6 => ⟨S256x64, .f32⟩
  | 7 => ⟨S2x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x64, .f32⟩
  | 54 => ⟨S50000x64, .f32⟩
  | 55 => ⟨S_, .f32⟩
  | 56 => ⟨S50000x64, .f32⟩
  | 57 => ⟨S800000x1, .i32⟩
  | 58 => ⟨S50000x64, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S_, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x64, .f32⟩
  | 95 => ⟨S50000x64, .f32⟩
  | 96 => ⟨S64x64, .f32⟩
  | 97 => ⟨S64x64, .f32⟩
  | 98 => ⟨S64x64, .f32⟩
  | 99 => ⟨S64x64, .f32⟩
  | 100 => ⟨S1x64, .f32⟩
  | 101 => ⟨S50000x64, .f32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S_, .f32⟩
  | 108 => ⟨S800000, .f32⟩
  | 109 => ⟨S_, .f32⟩
  | 110 => ⟨S50000, .f32⟩
  | 111 => ⟨S800000x1, .i32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x64, .f32⟩
  | 118 => ⟨S50000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S50000x64, .f32⟩

abbrev hbmTy0_1 (i : Nat) : BufTy := match i % 128 with
  | 0 => ⟨S_, .f32⟩
  | 1 => ⟨S50000x64, .f32⟩
  | 2 => ⟨S800000x1, .i32⟩
  | 3 => ⟨S50000x64, .f32⟩
  | 4 => ⟨S_, .f32⟩
  | 5 => ⟨S800000, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x64, .f32⟩
  | 15 => ⟨S50000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .f32⟩
  | 42 => ⟨S50000x64, .f32⟩
  | 43 => ⟨S800000x1, .i32⟩
  | 44 => ⟨S50000x64, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x64, .f32⟩
  | 56 => ⟨S50000x64, .f32⟩
  | 57 => ⟨S64x64, .f32⟩
  | 58 => ⟨S64x64, .f32⟩
  | 59 => ⟨S64x64, .f32⟩
  | 60 => ⟨S64x64, .f32⟩
  | 61 => ⟨S1x64, .f32⟩
  | 62 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S10000x2, .f32⟩
  | .local _ .vmem, ⟨21, _⟩ => ⟨S10000x2, .f32⟩
  | .local _ .vmem, ⟨22, _⟩ => ⟨S2x64, .f32⟩
  | .local _ .vmem, ⟨23, _⟩ => ⟨S10000x64, .f32⟩
  | .local _ .vmem, ⟨24, _⟩ => ⟨S10000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S64x64, .f32⟩
  | .local _ .vmem, ⟨34, _⟩ => ⟨S64x64, .f32⟩
  | .local _ .vmem, ⟨35, _⟩ => ⟨S64x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_22 : Ref sig .tc := ⟨.hbm, 119, rfl⟩
abbrev main_v86 : Ref sig .tc := ⟨.hbm, 120, rfl⟩
abbrev main_v87 : Ref sig .tc := ⟨.hbm, 121, rfl⟩
abbrev main_c_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_24 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_25 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_28 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_29 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_31 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_32 : Ref sig .tc := ⟨.hbm, 160, rfl⟩
abbrev main_v117 : Ref sig .tc := ⟨.hbm, 161, rfl⟩
abbrev main_v118 : Ref sig .tc := ⟨.hbm, 162, rfl⟩
abbrev main_c_33 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_cst_34 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_35 : Ref sig .tc := ⟨.hbm, 173, rfl⟩
abbrev main_v127 : Ref sig .tc := ⟨.hbm, 174, rfl⟩
abbrev main_cst_36 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_37 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S10000x2_S2x64_S10000x64_1_0_0_1_n_n_wf : DotDims.WF S10000x2 S2x64 S10000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S800000x2.size a
  hwx0_0 : ∀ i : grid0.Coords, EltTy.bits .f32 = 32 ∨ (Rect.block (s := S800000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S800000x64.size a
  hwx0_2 : ∀ i : grid0.Coords, EltTy.bits .f32 = 32 ∨ (Rect.block (s := S800000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S800000x2.size a
  hwx2_0 : ∀ i : grid2.Coords, EltTy.bits .f32 = 32 ∨ (Rect.block (s := S800000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x64.size a ≤ S2x64.size a
  hwx2_1 : ∀ i : grid2.Coords, EltTy.bits .f32 = 32 ∨ (Rect.block (s := S2x64) S2x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S800000x64.size a
  hwx2_2 : ∀ i : grid2.Coords, EltTy.bits .f32 = 32 ∨ (Rect.block (s := S800000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S50000x64.size a
  hwx3_9 : ∀ i : grid3.Coords, EltTy.bits .f32 = 32 ∨ (Rect.block (s := S50000x64) S5000x64.size (cc3_transform_9 i) (hinb3_9 i)).WholeWords (EltTy.packing .f32)

variable [Facts₀]

def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg2) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v67) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v71) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg2) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S2x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v104) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v135) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v116) S5000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v136) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v137) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v138) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v139) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v140) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v141) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x2 : Shape := ⟨2, ![800000, 2]⟩
abbrev S256x64 : Shape := ⟨2, ![256, 64]⟩
abbrev S2x64 : Shape := ⟨2, ![2, 64]⟩
abbrev S64 : Shape := ⟨1, ![64]⟩
abbrev S1x800000 : Shape := ⟨2, ![1, 800000]⟩
abbrev S800000 : Shape := ⟨1, ![800000]⟩
abbrev S800000x64 : Shape := ⟨2, ![800000, 64]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x256 : Shape := ⟨2, ![50000, 256]⟩
abbrev S1x64 : Shape := ⟨2, ![1, 64]⟩

abbrev nBuf : Space → Nat
  | .hbm => 195
  | .vmem => 0
  | .smem => 0
  | _ => 0

abbrev hbmTy0_0 (i : Nat) : BufTy := match i % 128 with
  | 0 => ⟨S50000x64, .f32⟩
  | 1 => ⟨S2x800000, .i32⟩
  | 2 => ⟨S800000x2, .f32⟩
  | 3 => ⟨S256x64, .f32⟩
  | 4 => ⟨S2x64, .f32⟩
  | 5 => ⟨S64, .f32⟩
  | 6 => ⟨S256x64, .f32⟩
  | 7 => ⟨S2x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000x1, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S_, .f32⟩
  | 44 => ⟨S800000, .f32⟩
  | 45 => ⟨S_, .f32⟩
  | 46 => ⟨S50000, .f32⟩
  | 47 => ⟨S800000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x64, .f32⟩
  | 54 => ⟨S50000x64, .f32⟩
  | 55 => ⟨S_, .f32⟩
  | 56 => ⟨S50000x64, .f32⟩
  | 57 => ⟨S800000x1, .i32⟩
  | 58 => ⟨S50000x64, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S50000, .f32⟩
  | 67 => ⟨S50000, .f32⟩
  | 68 => ⟨S50000x1, .f32⟩
  | 69 => ⟨S50000x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .f32⟩
  | 81 => ⟨S50000x64, .f32⟩
  | 82 => ⟨S800000x1, .i32⟩
  | 83 => ⟨S50000x64, .f32⟩
  | 84 => ⟨S_, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x64, .f32⟩
  | 95 => ⟨S50000x64, .f32⟩
  | 96 => ⟨S50000x256, .f32⟩
  | 97 => ⟨S50000x64, .f32⟩
  | 98 => ⟨S1x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S50000, .f32⟩
  | 117 => ⟨S50000, .f32⟩
  | 118 => ⟨S50000x1, .f32⟩
  | 119 => ⟨S50000x64, .f32⟩
  | 120 => ⟨S50000x64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000x64, .f32⟩
  | 2 => ⟨S_, .f32⟩
  | 3 => ⟨S50000x64, .f32⟩
  | 4 => ⟨S800000x1, .i32⟩
  | 5 => ⟨S50000x64, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x64, .f32⟩
  | 17 => ⟨S50000x64, .f32⟩
  | 18 => ⟨S_, .f32⟩
  | 19 => ⟨S50000x64, .f32⟩
  | 20 => ⟨S800000x1, .i32⟩
  | 21 => ⟨S50000x64, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S_, .f32⟩
  | 48 => ⟨S800000, .f32⟩
  | 49 => ⟨S_, .f32⟩
  | 50 => ⟨S50000, .f32⟩
  | 51 => ⟨S800000x1, .i32⟩
  | 52 => ⟨S50000, .f32⟩
  | 53 => ⟨S_, .f32⟩
  | 54 => ⟨S50000, .f32⟩
  | 55 => ⟨S50000, .f32⟩
  | 56 => ⟨S50000x1, .f32⟩
  | 57 => ⟨S50000x64, .f32⟩
  | 58 => ⟨S50000x64, .f32⟩
  | 59 => ⟨S50000x256, .f32⟩
  | 60 => ⟨S50000x64, .f32⟩
  | 61 => ⟨S1x64, .f32⟩
  | 62 => ⟨S50000x64, .f32⟩
  | 63 => ⟨S50000x64, .f32⟩
  | 64 => ⟨S_, .f32⟩
  | 65 => ⟨S50000x64, .f32⟩
  | 66 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_cst_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call0_cst : Ref sig .tc := ⟨.hbm, 101, rfl⟩
abbrev main_call0_v0 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_19 : Ref sig .tc := ⟨.hbm, 109, rfl⟩
abbrev main_v77 : Ref sig .tc := ⟨.hbm, 110, rfl⟩
abbrev main_cst_20 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_21 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_22 : Ref sig .tc := ⟨.hbm, 121, rfl⟩
abbrev main_v86 : Ref sig .tc := ⟨.hbm, 122, rfl⟩
abbrev main_v87 : Ref sig .tc := ⟨.hbm, 123, rfl⟩
abbrev main_c_23 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_24 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_25 : Ref sig .tc := ⟨.hbm, 134, rfl⟩
abbrev main_v96 : Ref sig .tc := ⟨.hbm, 135, rfl⟩
abbrev main_cst_26 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_27 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_28 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_29 : Ref sig .tc := ⟨.hbm, 150, rfl⟩
abbrev main_v108 : Ref sig .tc := ⟨.hbm, 151, rfl⟩
abbrev main_cst_30 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_31 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_32 : Ref sig .tc := ⟨.hbm, 162, rfl⟩
abbrev main_v117 : Ref sig .tc := ⟨.hbm, 163, rfl⟩
abbrev main_v118 : Ref sig .tc := ⟨.hbm, 164, rfl⟩
abbrev main_c_33 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_34 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_35 : Ref sig .tc := ⟨.hbm, 175, rfl⟩
abbrev main_v127 : Ref sig .tc := ⟨.hbm, 176, rfl⟩
abbrev main_cst_36 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_37 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_call1_cst : Ref sig .tc := ⟨.hbm, 192, rfl⟩
abbrev main_call1_v0 : Ref sig .tc := ⟨.hbm, 193, rfl⟩
abbrev main_v141 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x64_S50000x256_d1 : Shape.Concatenates [S50000x64, S50000x64, S50000x64, S50000x64] S50000x256 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S800000x2_S2x64_S800000x64_1_0_0_1_n_n_wf : DotDims.WF S800000x2 S2x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S50000x256_S256x64_S50000x64_1_0_0_1_n_n_wf : DotDims.WF S50000x256 S256x64 S50000x64 [1] [0] [0] [1] [] []

variable [Facts₀]

def dot_S800000x2_S2x64_S800000x64_1_0_0_1_n_n : DotDims S800000x2 S2x64 S800000x64 where
  lhsContracting := [1]
  rhsContracting := [0]
  lhsNonContracting := [0]
  rhsNonContracting := [1]
  lhsBatch := []
  rhsBatch := []
  wf := dot_S800000x2_S2x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Spec.lean ====
/-
  The two-layer edge-opinion convolution as pure functions of the argument arrays.

  One layer takes node features `x` (50000 × 64), the edges' source and target rows `row`, `col`
  (800000 integers each), edge labels `el` (800000 × 2), a label transform `tw` (2 × 64), a weight `W`
  (256 × 64) and a bias `b` (64), and computes

    elt          = el · tw                                   (800000 × 64)
    out          = mean over the edges e with row e = v of x (col e)
    opinion      = mean over the edges e with row e = v of elt e
    inn          = mean over the edges e with col e = v of x (row e)
    inn_opinion  = mean over the edges e with col e = v of elt e
    h            = max ([out | opinion | inn | inn_opinion] · W + b, 0)

  where a "mean" is a scatter-add into zeros divided by max(count, 1) (`smean`), and `x (idx e)` a row
  gather after wrapping negative indices (`take`). Those two are written ONCE here, in the host's own
  operations, and both programs use them unchanged: nothing below ever looks inside them.

  The two programs differ only in how the last line is grouped. One multiplies the four 64-column
  aggregates by the four 64-row blocks of `W` and adds the four products (`linK`); the other lays the four
  aggregates side by side into 256 columns and multiplies once (`linR`). Entry (r, q) of either is a sum of
  the same 256 products of extended reals, grouped differently: equal in any commutative monoid, with no
  finiteness needed.
-/
import proofs.«178492_j13073880449170_2_alg».proof.KernelIdeal
import proofs.«178492_j13073880449170_2_alg».proof.Proof.Gen.KernelIdeal
import proofs.«178492_j13073880449170_2_alg».proof.Proof.LibMatProd
import Idealize.ShloMosaic.PureOps.Ideal
import Idealize.ShloMosaic.Lib.ValueIdx

noncomputable section

open scoped BigOperators

namespace Cert.Spec

open Idealize.ShloMosaic Idealize.ShloMosaic.ValueIdx Cert.KernelIdeal Cert.KernelIdeal.Facts₀ Cert.Linear

/-! ## The edge list -/

/-- The edges' source rows: row 0 of the 2 × 800000 edge list. -/
def rowOf (ei : IVec S2x800000 32) : IVec S800000 32 :=
  shapeCast S800000 (extractStridedSlice S1x800000 ![0, 0] ei slices_S2x800000_S1x800000_0_0) shapeCasts_S1x800000_S800000

/-- The edges' target rows: row 1 of the edge list. -/
def colOf (ei : IVec S2x800000 32) : IVec S800000 32 :=
  shapeCast S800000 (extractStridedSlice S1x800000 ![1, 0] ei slices_S2x800000_S1x800000_1_0) shapeCasts_S1x800000_S800000

/-! ## Gather and scatter-mean, in the host's operations -/

/-- How many edges land on each node, at least one: a scatter-add of ones into zeros, then max with one. -/
def counts (idx : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32))

/-- The mean of the edge values landing on each node: their scatter-add into zeros over `counts`. -/
def smean (vals : FVec Ideal S800000x64 .f32) (idx : IVec S800000 32) : FVec Ideal S50000x64 .f32 :=
  Host.divf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 idx)
      vals)
    (broadcastInDim S50000x64 ![0, 1] bcast_S50000x1_S50000x64_0_1
      (broadcastInDim S50000x1 ![0] bcast_S50000_S50000x1_0 (counts idx)))

/-- Row `idx e` of `x` for every edge `e`, a negative index wrapped by adding 50000 first. -/
def take (x : FVec Ideal S50000x64 .f32) (idx : IVec S800000 32) : FVec Ideal S800000x64 .f32 :=
  Host.gather gather_S50000x64_S800000x1_S800000x64_1_0_n_n_0_1_164 x
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32)))
        idx))

/-! ## The linear step, grouped two ways -/

/-- Rows `64 n … 64 n + 63` of the weight. -/
def wblk (W : (Mat 256 64).Idx → EReal) (n : Fin 4) : (Mat 64 64).Idx → EReal :=
  fun i => W (ix2 (n0 := 256) (n1 := 64) ⟨64 * n.val + (i 0).val, by have := idx2_lt0 i; have := n.isLt; omega⟩ (i 1))

/-- The bias as a 1 × 64 row. -/
def brow (b : (⟨1, ![64]⟩ : Shape).Idx → EReal) : (Mat 1 64).Idx → EReal :=
  fun i => b (ix1 (n := 64) (i 1))

/-- Four products added, then the bias row on every row, then max with zero. -/
def linK {R : Nat} (a0 a1 a2 a3 : (Mat R 64).Idx → EReal) (w0 w1 w2 w3 : (Mat 64 64).Idx → EReal)
    (b : (Mat 1 64).Idx → EReal) : (Mat R 64).Idx → EReal :=
  fun i => max ((((matProd a0 w0 i + matProd a1 w1 i) + matProd a2 w2 i) + matProd a3 w3 i)
    + b (ix2 (n0 := 1) (n1 := 64) 0 (i 1))) 0

/-- Four R × 64 arrays side by side: column `64 n + j` is column `j` of the n-th. -/
def cat4 {R : Nat} (a0 a1 a2 a3 : (Mat R 64).Idx → EReal) : (Mat R 256).Idx → EReal :=
  fun i =>
    if h0 : (i 1).val < 64 then a0 (ix2 (n0 := R) (n1 := 64) (i 0) ⟨(i 1).val, h0⟩)
    else if h1 : (i 1).val < 128 then a1 (ix2 (n0 := R) (n1 := 64) (i 0) ⟨(i 1).val - 64, by omega⟩)
    else if h2 : (i 1).val < 192 then a2 (ix2 (n0 := R) (n1 := 64) (i 0) ⟨(i 1).val - 128, by omega⟩)
    else a3 (ix2 (n0 := R) (n1 := 64) (i 0) ⟨(i 1).val - 192, by have := idx2_lt1 i; omega⟩)

/-- One product with the whole weight, then the bias on every row, then max with zero. -/
def linR {R : Nat} (h : (Mat R 256).Idx → EReal) (W : (Mat 256 64).Idx → EReal)
    (b : (⟨1, ![64]⟩ : Shape).Idx → EReal) : (Mat R 64).Idx → EReal :=
  fun i => max (matProd h W i + b (ix1 (n := 64) (i 1))) 0

/-! ## A layer and the network, grouped each way -/

/-- One layer with the four products added. -/
def layerK (x : FVec Ideal S50000x64 .f32) (row col : IVec S800000 32) (el : FVec Ideal S800000x2 .f32)
    (W : FVec Ideal S256x64 .f32) (tw : FVec Ideal S2x64 .f32) (b : FVec Ideal S64 .f32) : FVec Ideal S50000x64 .f32 :=
  linK (R := 50000) (smean (take x col) row) (smean (matProd (R := 800000) (K := 2) (N := 64) el tw) row)
    (smean (take x row) col) (smean (matProd (R := 800000) (K := 2) (N := 64) el tw) col)
    (wblk W 0) (wblk W 1) (wblk W 2) (wblk W 3) (brow b)

/-- One layer with the aggregates side by side and one product. -/
def layerR (x : FVec Ideal S50000x64 .f32) (row col : IVec S800000 32) (el : FVec Ideal S800000x2 .f32)
    (W : FVec Ideal S256x64 .f32) (tw : FVec Ideal S2x64 .f32) (b : FVec Ideal S64 .f32) : FVec Ideal S50000x64 .f32 :=
  linR (R := 50000) (cat4 (smean (take x col) row) (smean (matProd (R := 800000) (K := 2) (N := 64) el tw) row)
    (smean (take x row) col) (smean (matProd (R := 800000) (K := 2) (N := 64) el tw) col)) W b

/-- Two layers, the second on the first's result, products added. -/
def netK (X : FVec Ideal S50000x64 .f32) (ei : IVec S2x800000 32) (el : FVec Ideal S800000x2 .f32)
    (w1 : FVec Ideal S256x64 .f32) (tw1 : FVec Ideal S2x64 .f32) (b1 : FVec Ideal S64 .f32)
    (w2 : FVec Ideal S256x64 .f32) (tw2 : FVec Ideal S2x64 .f32) (b2 : FVec Ideal S64 .f32) : FVec Ideal S50000x64 .f32 :=
  layerK (layerK X (rowOf ei) (colOf ei) el w1 tw1 b1) (rowOf ei) (colOf ei) el w2 tw2 b2

/-- Two layers, the second on the first's result, one product each. -/
def netR (X : FVec Ideal S50000x64 .f32) (ei : IVec S2x800000 32) (el : FVec Ideal S800000x2 .f32)
    (w1 : FVec Ideal S256x64 .f32) (tw1 : FVec Ideal S2x64 .f32) (b1 : FVec Ideal S64 .f32)
    (w2 : FVec Ideal S256x64 .f32) (tw2 : FVec Ideal S2x64 .f32) (b2 : FVec Ideal S64 .f32) : FVec Ideal S50000x64 .f32 :=
  layerR (layerR X (rowOf ei) (colOf ei) el w1 tw1 b1) (rowOf ei) (colOf ei) el w2 tw2 b2

end Cert.Spec

end
-- ==== Proof.SpecLaw.lean ====
/-
  The one algebraic law joining the two groupings of the linear step.

  Lay four R × 64 arrays a0 … a3 side by side into an R × 256 array (column 64 n + j is column j of a_n)
  and multiply by a 256 × 64 weight W: entry (r, q) is the sum over k < 256 of cat (r, k) · W (k, q).
  The first 256 naturals are four consecutive runs of 64; on the n-th run the term is
  a_n (r, j) · W (64 n + j, q), which is the j-th term of a_n times the n-th block of 64 rows of W.
  So the one product is the four block products added, left to right. Only associativity of the addition
  of extended reals is used, through the splitting of a sum over an initial segment at a cut point: no
  finiteness, no distributivity, and nothing is ever said about the aggregates that fill a0 … a3.
-/
import proofs.«178492_j13073880449170_2_alg».proof.Proof.Spec
import Mathlib.Algebra.BigOperators.Fin

noncomputable section

open scoped BigOperators

namespace Cert.Spec

open Idealize.ShloMosaic Idealize.ShloMosaic.ValueIdx Cert.Linear

/-! ## A sum over 256 consecutive indices is four runs of 64 -/

/-- In a commutative additive monoid, a sum over `k < 256` is the sum over `k < 64`, plus the sum over
    `64 + k`, plus the sum over `128 + k`, plus the sum over `192 + k`, associated to the left. -/
theorem sum_four_runs {M : Type*} [AddCommMonoid M] (g : Fin 256 → M) :
    ∑ k : Fin 256, g k =
      ((∑ k : Fin 64, g ⟨k.val, by have := k.isLt; omega⟩
          + ∑ k : Fin 64, g ⟨64 + k.val, by have := k.isLt; omega⟩)
        + ∑ k : Fin 64, g ⟨128 + k.val, by have := k.isLt; omega⟩)
      + ∑ k : Fin 64, g ⟨192 + k.val, by have := k.isLt; omega⟩ := by
  -- cut at 192, then the first 192 at 128, then the first 128 at 64
  refine (Fin.sum_univ_add (a := 192) (b := 64) g).trans ?_
  refine congrArg₂ (· + ·) ?_ rfl
  refine (Fin.sum_univ_add (a := 128) (b := 64) (fun i => g (Fin.castAdd 64 i))).trans ?_
  refine congrArg₂ (· + ·) ?_ rfl
  exact Fin.sum_univ_add (a := 64) (b := 64) (fun i => g (Fin.castAdd 64 (Fin.castAdd 64 i)))

/-! ## The side-by-side array on each run of columns, and a block of the weight at an entry -/

section runs

variable {R : Nat} (a0 a1 a2 a3 : (Mat R 64).Idx → EReal)

/-- Columns 0 … 63 of the side-by-side array are the first array. -/
theorem cat4_run0 (r : Fin R) (k : Fin 64) (h : k.val < 256) :
    cat4 a0 a1 a2 a3 (ix2 (n0 := R) (n1 := 256) r ⟨k.val, h⟩) = a0 (ix2 (n0 := R) (n1 := 64) r k) := by
  have c0 : ((ix2 (n0 := R) (n1 := 256) r ⟨k.val, h⟩) 1).val < 64 := k.isLt
  unfold cat4
  rw [dif_pos c0]
  rfl

/-- Columns 64 … 127 are the second array. -/
theorem cat4_run1 (r : Fin R) (k : Fin 64) (h : 64 + k.val < 256) :
    cat4 a0 a1 a2 a3 (ix2 (n0 := R) (n1 := 256) r ⟨64 + k.val, h⟩) = a1 (ix2 (n0 := R) (n1 := 64) r k) := by
  have hk := k.isLt
  have c0 : ¬ ((ix2 (n0 := R) (n1 := 256) r ⟨64 + k.val, h⟩) 1).val < 64 := by
    show ¬ 64 + k.val < 64; omega
  have c1 : ((ix2 (n0 := R) (n1 := 256) r ⟨64 + k.val, h⟩) 1).val < 128 := by
    show 64 + k.val < 128; omega
  unfold cat4
  rw [dif_neg c0, dif_pos c1]
  exact congrArg a1 (congrArg (ix2 (n0 := R) (n1 := 64) r) (Fin.ext (show 64 + k.val - 64 = k.val by omega)))

/-- Columns 128 … 191 are the third array. -/
theorem cat4_run2 (r : Fin R) (k : Fin 64) (h : 128 + k.val < 256) :
    cat4 a0 a1 a2 a3 (ix2 (n0 := R) (n1 := 256) r ⟨128 + k.val, h⟩) = a2 (ix2 (n0 := R) (n1 := 64) r k) := by
  have hk := k.isLt
  have c0 : ¬ ((ix2 (n0 := R) (n1 := 256) r ⟨128 + k.val, h⟩) 1).val < 64 := by
    show ¬ 128 + k.val < 64; omega
  have c1 : ¬ ((ix2 (n0 := R) (n1 := 256) r ⟨128 + k.val, h⟩) 1).val < 128 := by
    show ¬ 128 + k.val < 128; omega
  have c2 : ((ix2 (n0 := R) (n1 := 256) r ⟨128 + k.val, h⟩) 1).val < 192 := by
    show 128 + k.val < 192; omega
  unfold cat4
  rw [dif_neg c0, dif_neg c1, dif_pos c2]
  exact congrArg a2 (congrArg (ix2 (n0 := R) (n1 := 64) r) (Fin.ext (show 128 + k.val - 128 = k.val by omega)))

/-- Columns 192 … 255 are the fourth array. -/
theorem cat4_run3 (r : Fin R) (k : Fin 64) (h : 192 + k.val < 256) :
    cat4 a0 a1 a2 a3 (ix2 (n0 := R) (n1 := 256) r ⟨192 + k.val, h⟩) = a3 (ix2 (n0 := R) (n1 := 64) r k) := by
  have hk := k.isLt
  have c0 : ¬ ((ix2 (n0 := R) (n1 := 256) r ⟨192 + k.val, h⟩) 1).val < 64 := by
    show ¬ 192 + k.val < 64; omega
  have c1 : ¬ ((ix2 (n0 := R) (n1 := 256) r ⟨192 + k.val, h⟩) 1).val < 128 := by
    show ¬ 192 + k.val < 128; omega
  have c2 : ¬ ((ix2 (n0 := R) (n1 := 256) r ⟨192 + k.val, h⟩) 1).val < 192 := by
    show ¬ 192 + k.val < 192; omega
  unfold cat4
  rw [dif_neg c0, dif_neg c1, dif_neg c2]
  exact congrArg a3 (congrArg (ix2 (n0 := R) (n1 := 64) r) (Fin.ext (show 192 + k.val - 192 = k.val by omega)))

end runs

/-- Entry (k, q) of the n-th block of the weight is the weight's entry (c, q) for the row c = 64 n + k. -/
theorem wblk_run (W : (Mat 256 64).Idx → EReal) (n : Fin 4) (k q : Fin 64) (c : Fin 256)
    (hc : c.val = 64 * n.val + k.val) :
    W (ix2 (n0 := 256) (n1 := 64) c q) = wblk W n (ix2 (n0 := 64) (n1 := 64) k q) := by
  have e : c = ⟨64 * n.val + k.val, by have := c.isLt; omega⟩ := Fin.ext hc
  rw [e]
  rfl

/-! ## One product with the whole weight is the four block products added -/

/-- The side-by-side array times the weight, entry by entry, is the four arrays times the four blocks of
    the weight, added left to right. -/
theorem matProd_cat4 {R : Nat} (a0 a1 a2 a3 : (Mat R 64).Idx → EReal) (W : (Mat 256 64).Idx → EReal)
    (i : (Mat R 64).Idx) :
    matProd (cat4 a0 a1 a2 a3) W i =
      ((matProd a0 (wblk W 0) i + matProd a1 (wblk W 1) i) + matProd a2 (wblk W 2) i)
        + matProd a3 (wblk W 3) i := by
  unfold matProd
  rw [sum_four_runs]
  refine congrArg₂ (· + ·) (congrArg₂ (· + ·) (congrArg₂ (· + ·) ?_ ?_) ?_) ?_
  · refine Finset.sum_congr rfl fun k _ => ?_
    exact congrArg₂ (· * ·) (cat4_run0 a0 a1 a2 a3 (i 0) k _)
      (wblk_run W 0 k (i 1) ⟨k.val, _⟩ (show k.val = 64 * 0 + k.val by omega))
  · refine Finset.sum_congr rfl fun k _ => ?_
    exact congrArg₂ (· * ·) (cat4_run1 a0 a1 a2 a3 (i 0) k _)
      (wblk_run W 1 k (i 1) ⟨64 + k.val, _⟩ (show 64 + k.val = 64 * 1 + k.val by omega))
  · refine Finset.sum_congr rfl fun k _ => ?_
    exact congrArg₂ (· * ·) (cat4_run2 a0 a1 a2 a3 (i 0) k _)
      (wblk_run W 2 k (i 1) ⟨128 + k.val, _⟩ (show 128 + k.val = 64 * 2 + k.val by omega))
  · refine Finset.sum_congr rfl fun k _ => ?_
    exact congrArg₂ (· * ·) (cat4_run3 a0 a1 a2 a3 (i 0) k _)
      (wblk_run W 3 k (i 1) ⟨192 + k.val, _⟩ (show 192 + k.val = 64 * 3 + k.val by omega))

/-! ## The linear step, a layer, the network -/

/-- The four block products added, plus the bias row, clipped at zero, is the one product with the whole
    weight, plus the bias, clipped at zero: the two products agree entry by entry, and entry (0, q) of the
    bias written as a row is entry q of the bias. -/
theorem lin_eq {R : Nat} (a0 a1 a2 a3 : (Mat R 64).Idx → EReal) (W : (Mat 256 64).Idx → EReal)
    (b : (⟨1, ![64]⟩ : Shape).Idx → EReal) :
    linK a0 a1 a2 a3 (wblk W 0) (wblk W 1) (wblk W 2) (wblk W 3) (brow b) = linR (cat4 a0 a1 a2 a3) W b := by
  funext i
  unfold linK linR
  rw [matProd_cat4]
  rfl

/-- A layer is the same function of its seven arguments under either grouping: its four aggregates enter
    only as the four arrays of the linear step. -/
theorem layer_eq : layerK = layerR := by
  funext x row col el W tw b
  unfold layerK layerR
  exact lin_eq _ _ _ _ W b

/-- Two layers, the second on the first's result, are the same under either grouping. -/
theorem net_eq : netK = netR := by
  funext X ei el w1 tw1 b1 w2 tw2 b2
  unfold netK netR
  rw [layer_eq]

end Cert.Spec

end
-- ==== Proof.KRun.lean ====
/-
  The kernel's run with its result named.

  @main is seven segments: a stretch of host operations, the first label-transform region, a stretch, the first
  linear region, the second label-transform region, a stretch, the second linear region. The frame certificate
  follows the TensorCore's buffer contents through them as a fold `W0 … W7` from the launch memory and proves
  that every execution ends with every unscoped buffer at `W7`. Here that same launch is read at the RESULT
  buffer as well as at the arguments: the result array ends at `W7` of its reference, the arguments as launched.
-/
import proofs.«178492_j13073880449170_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last fold's
    contents of its buffer and every argument array as launched. -/
theorem run : θ_run defs (onTc (τ := τ) (main (F := F))) ⟨m, fun _ => 0, ρ⟩ (fun r => ∀ c : Dev nD,
      r.2.mem ((c.tc : Thread nD τ).loc main_v141) = W7 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v141 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.KRun

end
-- ==== Proof.KHost0.lean ====
/-
  The host operations before the first region, and the two layout forms the linear regions' small operands come in.

  Before anything else @main cuts the 2 × 800000 edge list into its two rows (a slice and a reshape each): the
  edges' source rows and target rows. Whatever the buffers hold when that stretch starts, afterwards those two
  buffers hold `rowOf` and `colOf` of the edge-list buffer and the argument buffers are untouched.
  A 64-row slice of the 256 × 64 weight at offset 64 n is the weight's n-th row block, and the 64-vector bias
  reshaped to 1 × 64 is the bias as a row: both read index by index.
-/
import proofs.«178492_j13073880449170_2_alg».proof.Proof.Gen.KernelIdeal.Launch
import proofs.«178492_j13073880449170_2_alg».proof.Proof.Spec
import Idealize.ShloMosaic.Lib.StableHlo.Run
import Idealize.ShloMosaic.Lib.Pipeline.Value

set_option maxRecDepth 16384

noncomputable section

namespace Cert.KHost

open Cert.KernelIdeal Cert.KernelIdeal.Gen Idealize.ShloMosaic Idealize.ShloMosaic.TcCoe Idealize.ShloMosaic.ValueIdx
open Idealize.SL.Sem Idealize.ShloMosaic.StableHlo

/-! ## Weight blocks and the bias row -/

/-- The slice of the weight at row offset 0 is its block 0. -/
theorem slice_wblk0 (X : FVec Ideal S256x64 .f32) :
    extractStridedSlice S64x64 ![0, 0] X slices_S256x64_S64x64_0_0 = Cert.Spec.wblk X 0 := by
  funext j
  refine extractStridedSlice_apply _ X _ j _ fun a => ?_
  match a with
  | ⟨0, _⟩ => rfl
  | ⟨1, _⟩ => exact (Nat.zero_add _).symm

/-- The slice of the weight at row offset 64 is its block 1. -/
theorem slice_wblk1 (X : FVec Ideal S256x64 .f32) :
    extractStridedSlice S64x64 ![64, 0] X slices_S256x64_S64x64_64_0 = Cert.Spec.wblk X 1 := by
  funext j
  refine extractStridedSlice_apply _ X _ j _ fun a => ?_
  match a with
  | ⟨0, _⟩ => rfl
  | ⟨1, _⟩ => exact (Nat.zero_add _).symm

/-- The slice of the weight at row offset 128 is its block 2. -/
theorem slice_wblk2 (X : FVec Ideal S256x64 .f32) :
    extractStridedSlice S64x64 ![128, 0] X slices_S256x64_S64x64_128_0 = Cert.Spec.wblk X 2 := by
  funext j
  refine extractStridedSlice_apply _ X _ j _ fun a => ?_
  match a with
  | ⟨0, _⟩ => rfl
  | ⟨1, _⟩ => exact (Nat.zero_add _).symm

/-- The slice of the weight at row offset 192 is its block 3. -/
theorem slice_wblk3 (X : FVec Ideal S256x64 .f32) :
    extractStridedSlice S64x64 ![192, 0] X slices_S256x64_S64x64_192_0 = Cert.Spec.wblk X 3 := by
  funext j
  refine extractStridedSlice_apply _ X _ j _ fun a => ?_
  match a with
  | ⟨0, _⟩ => rfl
  | ⟨1, _⟩ => exact (Nat.zero_add _).symm

/-- The bias reshaped to one row of 64 is the bias as a row: entry (0, q) is entry q. -/
theorem reshape_brow (b : FVec Ideal S64 .f32) :
    shapeCast S1x64 b shapeCasts_S64_S1x64 = Cert.Spec.brow b := by
  funext j
  refine shapeCast_apply b _ j (ix1 (n := 64) (j 1)) ?_
  rw [Shape.rowMajor_val_one, Shape.rowMajor_val_two]
  have h0 : (j 0).val < 1 := idx2_lt0 j
  show (j 1).val = (j 0).val * 64 + (j 1).val
  omega

/-! ## The stretch before the first region -/

/-- After the first stretch the row buffer holds the edge list's row 0. -/
theorem h0_v1 (W : Valuation τ sig (Elt Ideal)) :
    after (hostOps0 (F := Ideal)) W (Proc.devRef .tc main_v1) = Cert.Spec.rowOf (W (Proc.devRef .tc main_arg1)) := by
  after_results_simp <;> rfl
/-- After the first stretch the column buffer holds the edge list's row 1. -/
theorem h0_v3 (W : Valuation τ sig (Elt Ideal)) :
    after (hostOps0 (F := Ideal)) W (Proc.devRef .tc main_v3) = Cert.Spec.colOf (W (Proc.devRef .tc main_arg1)) := by
  after_results_simp <;> rfl
/-- The first stretch leaves argument 0's buffer alone. -/
theorem h0_arg0 (W : Valuation τ sig (Elt Ideal)) :
    after (hostOps0 (F := Ideal)) W (Proc.devRef .tc main_arg0) = W (Proc.devRef .tc main_arg0) := by
  after_results_simp <;> rfl
/-- The first stretch leaves argument 2's buffer alone. -/
theorem h0_arg2 (W : Valuation τ sig (Elt Ideal)) :
    after (hostOps0 (F := Ideal)) W (Proc.devRef .tc main_arg2) = W (Proc.devRef .tc main_arg2) := by
  after_results_simp <;> rfl
/-- The first stretch leaves argument 3's buffer alone. -/
theorem h0_arg3 (W : Valuation τ sig (Elt Ideal)) :
    after (hostOps0 (F := Ideal)) W (Proc.devRef .tc main_arg3) = W (Proc.devRef .tc main_arg3) := by
  after_results_simp <;> rfl
/-- The first stretch leaves argument 4's buffer alone. -/
theorem h0_arg4 (W : Valuation τ sig (Elt Ideal)) :
    after (hostOps0 (F := Ideal)) W (Proc.devRef .tc main_arg4) = W (Proc.devRef .tc main_arg4) := by
  after_results_simp <;> rfl
/-- The first stretch leaves argument 5's buffer alone. -/
theorem h0_arg5 (W : Valuation τ sig (Elt Ideal)) :
    after (hostOps0 (F := Ideal)) W (Proc.devRef .tc main_arg5) = W (Proc.devRef .tc main_arg5) := by
  after_results_simp <;> rfl
/-- The first stretch leaves argument 6's buffer alone. -/
theorem h0_arg6 (W : Valuation τ sig (Elt Ideal)) :
    after (hostOps0 (F := Ideal)) W (Proc.devRef .tc main_arg6) = W (Proc.devRef .tc main_arg6) := by
  after_results_simp <;> rfl
/-- The first stretch leaves argument 7's buffer alone. -/
theorem h0_arg7 (W : Valuation τ sig (Elt Ideal)) :
    after (hostOps0 (F := Ideal)) W (Proc.devRef .tc main_arg7) = W (Proc.devRef .tc main_arg7) := by
  after_results_simp <;> rfl
/-- The first stretch leaves argument 8's buffer alone. -/
theorem h0_arg8 (W : Valuation τ sig (Elt Ideal)) :
    after (hostOps0 (F := Ideal)) W (Proc.devRef .tc main_arg8) = W (Proc.devRef .tc main_arg8) := by
  after_results_simp <;> rfl

end Cert.KHost

end
-- ==== Proof.KHost1.lean ====
/-
  The 87 host operations between the first label-transform region and the first linear region, read at the nine
  buffers the linear region takes, for ANY buffer contents `W` at the stretch's start: the four aggregates are
  the specification's scatter-means (of gathered rows of the node features, or of the transformed labels, over the
  edges' source or target rows), the four weight operands are 64-row slices of the weight, and the bias operand
  is the bias reshaped to a row. The stretch writes none of the buffers later segments still read.
-/
import proofs.«178492_j13073880449170_2_alg».proof.Proof.Gen.KernelIdeal.Launch
import proofs.«178492_j13073880449170_2_alg».proof.Proof.Spec
import Idealize.ShloMosaic.Lib.StableHlo.Run
import Idealize.ShloMosaic.Lib.Pipeline.Value

set_option maxRecDepth 16384

noncomputable section

namespace Cert.KHost1

open Cert.KernelIdeal Cert.KernelIdeal.Gen Idealize.ShloMosaic Idealize.ShloMosaic.TcCoe Idealize.ShloMosaic.ValueIdx
open Idealize.SL.Sem Idealize.ShloMosaic.StableHlo

set_option maxHeartbeats 4000000

/-- The mean, over the edges out of each node, of the features at the edge's target. -/
theorem out (W : Valuation τ sig (Elt Ideal)) :
    after (hostOps1 (F := Ideal)) W (Proc.devRef .tc main_v35) = Cert.Spec.smean (Cert.Spec.take (W (Proc.devRef .tc main_arg0)) (W (Proc.devRef .tc main_v3))) (W (Proc.devRef .tc main_v1)) := by
  after_results_simp <;> rfl
/-- The mean, over the edges out of each node, of the transformed labels. -/
theorem opinion (W : Valuation τ sig (Elt Ideal)) :
    after (hostOps1 (F := Ideal)) W (Proc.devRef .tc main_v16) = Cert.Spec.smean (W (Proc.devRef .tc main_v4)) (W (Proc.devRef .tc main_v1)) := by
  after_results_simp <;> rfl
/-- The mean, over the edges into each node, of the features at the edge's source. -/
theorem inn (W : Valuation τ sig (Elt Ideal)) :
    after (hostOps1 (F := Ideal)) W (Proc.devRef .tc main_v66) = Cert.Spec.smean (Cert.Spec.take (W (Proc.devRef .tc main_arg0)) (W (Proc.devRef .tc main_v1))) (W (Proc.devRef .tc main_v3)) := by
  after_results_simp <;> rfl
/-- The mean, over the edges into each node, of the transformed labels. -/
theorem innop (W : Valuation τ sig (Elt Ideal)) :
    after (hostOps1 (F := Ideal)) W (Proc.devRef .tc main_v47) = Cert.Spec.smean (W (Proc.devRef .tc main_v4)) (W (Proc.devRef .tc main_v3)) := by
  after_results_simp <;> rfl
/-- Rows 0 … 63 of the weight. -/
theorem w0 (W : Valuation τ sig (Elt Ideal)) :
    after (hostOps1 (F := Ideal)) W (Proc.devRef .tc main_v67) = extractStridedSlice S64x64 ![0, 0] (W (Proc.devRef .tc main_arg3)) slices_S256x64_S64x64_0_0 := by
  after_results_simp <;> rfl
/-- Rows 64 … 127 of the weight. -/
theorem w1 (W : Valuation τ sig (Elt Ideal)) :
    after (hostOps1 (F := Ideal)) W (Proc.devRef .tc main_v68) = extractStridedSlice S64x64 ![64, 0] (W (Proc.devRef .tc main_arg3)) slices_S256x64_S64x64_64_0 := by
  after_results_simp <;> rfl
/-- Rows 128 … 191 of the weight. -/
theorem w2 (W : Valuation τ sig (Elt Ideal)) :
    after (hostOps1 (F := Ideal)) W (Proc.devRef .tc main_v69) = extractStridedSlice S64x64 ![128, 0] (W (Proc.devRef .tc main_arg3)) slices_S256x64_S64x64_128_0 := by
  after_results_simp <;> rfl
/-- Rows 192 … 255 of the weight. -/
theorem w3 (W : Valuation τ sig (Elt Ideal)) :
    after (hostOps1 (F := Ideal)) W (Proc.devRef .tc main_v70) = extractStridedSlice S64x64 ![192, 0] (W (Proc.devRef .tc main_arg3)) slices_S256x64_S64x64_192_0 := by
  after_results_simp <;> rfl
/-- The bias as one row. -/
theorem bias (W : Valuation τ sig (Elt Ideal)) :
    after (hostOps1 (F := Ideal)) W (Proc.devRef .tc main_v71) = shapeCast S1x64 (W (Proc.devRef .tc main_arg5)) shapeCasts_S64_S1x64 := by
  after_results_simp <;> rfl
/-- The stretch leaves `main_v1` alone. -/
theorem keep_v1 (W : Valuation τ sig (Elt Ideal)) :
    after (hostOps1 (F := Ideal)) W (Proc.devRef .tc main_v1) = W (Proc.devRef .tc main_v1) := by
  after_results_simp <;> rfl
/-- The stretch leaves `main_v3` alone. -/
theorem keep_v3 (W : Valuation τ sig (Elt Ideal)) :
    after (hostOps1 (F := Ideal)) W (Proc.devRef .tc main_v3) = W (Proc.devRef .tc main_v3) := by
  after_results_simp <;> rfl
/-- The stretch leaves `main_arg2` alone. -/
theorem keep_arg2 (W : Valuation τ sig (Elt Ideal)) :
    after (hostOps1 (F := Ideal)) W (Proc.devRef .tc main_arg2) = W (Proc.devRef .tc main_arg2) := by
  after_results_simp <;> rfl
/-- The stretch leaves `main_arg6` alone. -/
theorem keep_arg6 (W : Valuation τ sig (Elt Ideal)) :
    after (hostOps1 (F := Ideal)) W (Proc.devRef .tc main_arg6) = W (Proc.devRef .tc main_arg6) := by
  after_results_simp <;> rfl
/-- The stretch leaves `main_arg7` alone. -/
theorem keep_arg7 (W : Valuation τ sig (Elt Ideal)) :
    after (hostOps1 (F := Ideal)) W (Proc.devRef .tc main_arg7) = W (Proc.devRef .tc main_arg7) := by
  after_results_simp <;> rfl
/-- The stretch leaves `main_arg8` alone. -/
theorem keep_arg8 (W : Valuation τ sig (Elt Ideal)) :
    after (hostOps1 (F := Ideal)) W (Proc.devRef .tc main_arg8) = W (Proc.devRef .tc main_arg8) := by
  after_results_simp <;> rfl

end Cert.KHost1

end
-- ==== Proof.KHost3.lean ====
/-
  The 87 host operations between the second label-transform region and the second linear region, read at the
  nine buffers the linear region takes, for ANY buffer contents `W` at the stretch's start: the same nine forms as
  in the first layer, with the first layer's result in place of the node features, the second transformed
  labels, and the second weight and bias.
-/
import proofs.«178492_j13073880449170_2_alg».proof.Proof.Gen.KernelIdeal.Launch
import proofs.«178492_j13073880449170_2_alg».proof.Proof.Spec
import Idealize.ShloMosaic.Lib.StableHlo.Run
import Idealize.ShloMosaic.Lib.Pipeline.Value

set_option maxRecDepth 16384

noncomputable section

namespace Cert.KHost3

open Cert.KernelIdeal Cert.KernelIdeal.Gen Idealize.ShloMosaic Idealize.ShloMosaic.TcCoe Idealize.ShloMosaic.ValueIdx
open Idealize.SL.Sem Idealize.ShloMosaic.StableHlo

set_option maxHeartbeats 4000000

/-- The mean, over the edges out of each node, of the features at the edge's target. -/
theorem out (W : Valuation τ sig (Elt Ideal)) :
    after (hostOps3 (F := Ideal)) W (Proc.devRef .tc main_v104) = Cert.Spec.smean (Cert.Spec.take (W (Proc.devRef .tc main_v72)) (W (Proc.devRef .tc main_v3))) (W (Proc.devRef .tc main_v1)) := by
  after_results_simp <;> rfl
/-- The mean, over the edges out of each node, of the transformed labels. -/
theorem opinion (W : Valuation τ sig (Elt Ideal)) :
    after (hostOps3 (F := Ideal)) W (Proc.devRef .tc main_v85) = Cert.Spec.smean (W (Proc.devRef .tc main_v73)) (W (Proc.devRef .tc main_v1)) := by
  after_results_simp <;> rfl
/-- The mean, over the edges into each node, of the features at the edge's source. -/
theorem inn (W : Valuation τ sig (Elt Ideal)) :
    after (hostOps3 (F := Ideal)) W (Proc.devRef .tc main_v135) = Cert.Spec.smean (Cert.Spec.take (W (Proc.devRef .tc main_v72)) (W (Proc.devRef .tc main_v1))) (W (Proc.devRef .tc main_v3)) := by
  after_results_simp <;> rfl
/-- The mean, over the edges into each node, of the transformed labels. -/
theorem innop (W : Valuation τ sig (Elt Ideal)) :
    after (hostOps3 (F := Ideal)) W (Proc.devRef .tc main_v116) = Cert.Spec.smean (W (Proc.devRef .tc main_v73)) (W (Proc.devRef .tc main_v3)) := by
  after_results_simp <;> rfl
/-- Rows 0 … 63 of the weight. -/
theorem w0 (W : Valuation τ sig (Elt Ideal)) :
    after (hostOps3 (F := Ideal)) W (Proc.devRef .tc main_v136) = extractStridedSlice S64x64 ![0, 0] (W (Proc.devRef .tc main_arg6)) slices_S256x64_S64x64_0_0 := by
  after_results_simp <;> rfl
/-- Rows 64 … 127 of the weight. -/
theorem w1 (W : Valuation τ sig (Elt Ideal)) :
    after (hostOps3 (F := Ideal)) W (Proc.devRef .tc main_v137) = extractStridedSlice S64x64 ![64, 0] (W (Proc.devRef .tc main_arg6)) slices_S256x64_S64x64_64_0 := by
  after_results_simp <;> rfl
/-- Rows 128 … 191 of the weight. -/
theorem w2 (W : Valuation τ sig (Elt Ideal)) :
    after (hostOps3 (F := Ideal)) W (Proc.devRef .tc main_v138) = extractStridedSlice S64x64 ![128, 0] (W (Proc.devRef .tc main_arg6)) slices_S256x64_S64x64_128_0 := by
  after_results_simp <;> rfl
/-- Rows 192 … 255 of the weight. -/
theorem w3 (W : Valuation τ sig (Elt Ideal)) :
    after (hostOps3 (F := Ideal)) W (Proc.devRef .tc main_v139) = extractStridedSlice S64x64 ![192, 0] (W (Proc.devRef .tc main_arg6)) slices_S256x64_S64x64_192_0 := by
  after_results_simp <;> rfl
/-- The bias as one row. -/
theorem bias (W : Valuation τ sig (Elt Ideal)) :
    after (hostOps3 (F := Ideal)) W (Proc.devRef .tc main_v140) = shapeCast S1x64 (W (Proc.devRef .tc main_arg8)) shapeCasts_S64_S1x64 := by
  after_results_simp <;> rfl

end Cert.KHost3

end
-- ==== Proof.KFold.lean ====
/-
  The kernel's result as the specification's network of the argument arrays.

  The frame certificate follows the TensorCore's buffer contents through @main's seven segments as a fold
  `W0 … W7`. This module reads that fold at exactly the buffers later segments consume:

    W1  (after the first host stretch)      the edge list's two rows, the arguments as launched
    W2  (after the first transform region)  the transformed labels  el · tw1
    W3  (after the second stretch)          the four aggregates, the weight's four row blocks, the bias row
    W4  (after the first linear region)     the first layer's result
    W5  (after the second transform region) the transformed labels  el · tw2
    W6  (after the third stretch)           the second layer's aggregates, weight blocks and bias row
    W7  (after the second linear region)    the result: two layers of `layerK`

  A region's output array is taken from what the region leaves, as one function of the arrays it found (the four
  facts `RegionValues`, proved region by region elsewhere); every other buffer passes through a region
  unchanged, and through a host stretch unchanged unless the stretch writes it.
-/
import proofs.«178492_j13073880449170_2_alg».proof.Proof.Gen.KernelIdeal.Frame
import proofs.«178492_j13073880449170_2_alg».proof.Proof.KHost0
import proofs.«178492_j13073880449170_2_alg».proof.Proof.KHost1
import proofs.«178492_j13073880449170_2_alg».proof.Proof.KHost3

set_option maxRecDepth 16384

noncomputable section

namespace Cert.KFold

open Cert.KernelIdeal Cert.KernelIdeal.Gen Idealize.ShloMosaic Idealize.ShloMosaic.TcCoe Idealize.ShloMosaic.ValueIdx
open Idealize.SL.Sem Idealize.ShloMosaic.StableHlo Cert.Linear

/-- What each of the four regions leaves in its output array, as one function of the arrays it finds, whatever
    the buffers hold when it is entered. -/
structure RegionValues : Prop where
  elt0 : ∀ (V : (c : Dev nD) → (b : Ref sig .tc) → Buf (Elt Ideal) ((c : Thread nD τ).loc b)) (c : Dev nD),
    (dat0 (F := Ideal) V c).arrAt 2 cfg0.N = matProd (R := 800000) (K := 2) (N := 64) (V c main_arg2) (V c main_arg4)
  lin1 : ∀ (V : (c : Dev nD) → (b : Ref sig .tc) → Buf (Elt Ideal) ((c : Thread nD τ).loc b)) (c : Dev nD),
    (dat1 (F := Ideal) V c).arrAt 9 cfg1.N = Cert.Spec.linK (R := 50000) (V c main_v35) (V c main_v16) (V c main_v66) (V c main_v47)
      (V c main_v67) (V c main_v68) (V c main_v69) (V c main_v70) (V c main_v71)
  elt2 : ∀ (V : (c : Dev nD) → (b : Ref sig .tc) → Buf (Elt Ideal) ((c : Thread nD τ).loc b)) (c : Dev nD),
    (dat2 (F := Ideal) V c).arrAt 2 cfg2.N = matProd (R := 800000) (K := 2) (N := 64) (V c main_arg2) (V c main_arg7)
  lin3 : ∀ (V : (c : Dev nD) → (b : Ref sig .tc) → Buf (Elt Ideal) ((c : Thread nD τ).loc b)) (c : Dev nD),
    (dat3 (F := Ideal) V c).arrAt 9 cfg3.N = Cert.Spec.linK (R := 50000) (V c main_v104) (V c main_v85) (V c main_v135) (V c main_v116)
      (V c main_v136) (V c main_v137) (V c main_v138) (V c main_v139) (V c main_v140)

variable (m : (ℓ : Loc nD τ sig) → Buf (Elt Ideal) ℓ) (ρ : Dev nD → PrngReg) (c : Dev nD)

/-! ## After the first host stretch -/

theorem W1_v1 : W1 m ρ c (Proc.devRef .tc main_v1) = (Cert.Spec.rowOf (m ((c.tc : Thread nD τ).loc main_arg1))) := Cert.KHost.h0_v1 (W0 m ρ c)
theorem W1_v3 : W1 m ρ c (Proc.devRef .tc main_v3) = (Cert.Spec.colOf (m ((c.tc : Thread nD τ).loc main_arg1))) := Cert.KHost.h0_v3 (W0 m ρ c)
theorem W1_arg0 : W1 m ρ c (Proc.devRef .tc main_arg0) = (m ((c.tc : Thread nD τ).loc main_arg0)) := Cert.KHost.h0_arg0 (W0 m ρ c)
theorem W1_arg2 : W1 m ρ c (Proc.devRef .tc main_arg2) = (m ((c.tc : Thread nD τ).loc main_arg2)) := Cert.KHost.h0_arg2 (W0 m ρ c)
theorem W1_arg3 : W1 m ρ c (Proc.devRef .tc main_arg3) = (m ((c.tc : Thread nD τ).loc main_arg3)) := Cert.KHost.h0_arg3 (W0 m ρ c)
theorem W1_arg4 : W1 m ρ c (Proc.devRef .tc main_arg4) = (m ((c.tc : Thread nD τ).loc main_arg4)) := Cert.KHost.h0_arg4 (W0 m ρ c)
theorem W1_arg5 : W1 m ρ c (Proc.devRef .tc main_arg5) = (m ((c.tc : Thread nD τ).loc main_arg5)) := Cert.KHost.h0_arg5 (W0 m ρ c)
theorem W1_arg6 : W1 m ρ c (Proc.devRef .tc main_arg6) = (m ((c.tc : Thread nD τ).loc main_arg6)) := Cert.KHost.h0_arg6 (W0 m ρ c)
theorem W1_arg7 : W1 m ρ c (Proc.devRef .tc main_arg7) = (m ((c.tc : Thread nD τ).loc main_arg7)) := Cert.KHost.h0_arg7 (W0 m ρ c)
theorem W1_arg8 : W1 m ρ c (Proc.devRef .tc main_arg8) = (m ((c.tc : Thread nD τ).loc main_arg8)) := Cert.KHost.h0_arg8 (W0 m ρ c)

/-! ## After the first transform region -/

theorem W2_v1 : W2 m ρ c (Proc.devRef .tc main_v1) = (Cert.Spec.rowOf (m ((c.tc : Thread nD τ).loc main_arg1))) := (W2_of_ne m ρ c main_v1 (by decide)).trans (W1_v1 m ρ c)
theorem W2_v3 : W2 m ρ c (Proc.devRef .tc main_v3) = (Cert.Spec.colOf (m ((c.tc : Thread nD τ).loc main_arg1))) := (W2_of_ne m ρ c main_v3 (by decide)).trans (W1_v3 m ρ c)
theorem W2_arg0 : W2 m ρ c (Proc.devRef .tc main_arg0) = (m ((c.tc : Thread nD τ).loc main_arg0)) := (W2_of_ne m ρ c main_arg0 (by decide)).trans (W1_arg0 m ρ c)
/-- The label array is the first transform region's own input: an input window's array ends as entered. -/
theorem W2_arg2 : W2 m ρ c (Proc.devRef .tc main_arg2) = (m ((c.tc : Thread nD τ).loc main_arg2)) :=
  ((W2_arr m ρ c 0).trans (((dat0 (V1 m ρ) c).arrAt_in 0 rfl _).trans (A_eq0 (V1 m ρ) c 0))).trans (W1_arg2 m ρ c)
theorem W2_arg3 : W2 m ρ c (Proc.devRef .tc main_arg3) = (m ((c.tc : Thread nD τ).loc main_arg3)) := (W2_of_ne m ρ c main_arg3 (by decide)).trans (W1_arg3 m ρ c)
theorem W2_arg5 : W2 m ρ c (Proc.devRef .tc main_arg5) = (m ((c.tc : Thread nD τ).loc main_arg5)) := (W2_of_ne m ρ c main_arg5 (by decide)).trans (W1_arg5 m ρ c)
theorem W2_arg6 : W2 m ρ c (Proc.devRef .tc main_arg6) = (m ((c.tc : Thread nD τ).loc main_arg6)) := (W2_of_ne m ρ c main_arg6 (by decide)).trans (W1_arg6 m ρ c)
theorem W2_arg7 : W2 m ρ c (Proc.devRef .tc main_arg7) = (m ((c.tc : Thread nD τ).loc main_arg7)) := (W2_of_ne m ρ c main_arg7 (by decide)).trans (W1_arg7 m ρ c)
theorem W2_arg8 : W2 m ρ c (Proc.devRef .tc main_arg8) = (m ((c.tc : Thread nD τ).loc main_arg8)) := (W2_of_ne m ρ c main_arg8 (by decide)).trans (W1_arg8 m ρ c)

theorem W2_v4 (R : RegionValues) : W2 m ρ c (Proc.devRef .tc main_v4) = (matProd (R := 800000) (K := 2) (N := 64) (m ((c.tc : Thread nD τ).loc main_arg2)) (m ((c.tc : Thread nD τ).loc main_arg4))) := by
  refine ((W2_arr m ρ c 2).trans (R.elt0 (V1 m ρ) c)).trans ?_
  show matProd (R := 800000) (K := 2) (N := 64) (W1 m ρ c (Proc.devRef .tc main_arg2)) (W1 m ρ c (Proc.devRef .tc main_arg4)) = _
  rw [W1_arg2, W1_arg4]

/-! ## After the second host stretch -/

theorem W3_v35 : W3 m ρ c (Proc.devRef .tc main_v35) = Cert.Spec.smean (Cert.Spec.take (m ((c.tc : Thread nD τ).loc main_arg0)) (Cert.Spec.colOf (m ((c.tc : Thread nD τ).loc main_arg1)))) (Cert.Spec.rowOf (m ((c.tc : Thread nD τ).loc main_arg1))) := by
  show after hostOps1 (W2 m ρ c) _ = _
  rw [Cert.KHost1.out, W2_arg0, W2_v3, W2_v1]
theorem W3_v16 (R : RegionValues) : W3 m ρ c (Proc.devRef .tc main_v16) = Cert.Spec.smean (matProd (R := 800000) (K := 2) (N := 64) (m ((c.tc : Thread nD τ).loc main_arg2)) (m ((c.tc : Thread nD τ).loc main_arg4))) (Cert.Spec.rowOf (m ((c.tc : Thread nD τ).loc main_arg1))) := by
  show after hostOps1 (W2 m ρ c) _ = _
  rw [Cert.KHost1.opinion, W2_v4 m ρ c R, W2_v1]
theorem W3_v66 : W3 m ρ c (Proc.devRef .tc main_v66) = Cert.Spec.smean (Cert.Spec.take (m ((c.tc : Thread nD τ).loc main_arg0)) (Cert.Spec.rowOf (m ((c.tc : Thread nD τ).loc main_arg1)))) (Cert.Spec.colOf (m ((c.tc : Thread nD τ).loc main_arg1))) := by
  show after hostOps1 (W2 m ρ c) _ = _
  rw [Cert.KHost1.inn, W2_arg0, W2_v3, W2_v1]
theorem W3_v47 (R : RegionValues) : W3 m ρ c (Proc.devRef .tc main_v47) = Cert.Spec.smean (matProd (R := 800000) (K := 2) (N := 64) (m ((c.tc : Thread nD τ).loc main_arg2)) (m ((c.tc : Thread nD τ).loc main_arg4))) (Cert.Spec.colOf (m ((c.tc : Thread nD τ).loc main_arg1))) := by
  show after hostOps1 (W2 m ρ c) _ = _
  rw [Cert.KHost1.innop, W2_v4 m ρ c R, W2_v3]
theorem W3_v67 : W3 m ρ c (Proc.devRef .tc main_v67) = Cert.Spec.wblk (m ((c.tc : Thread nD τ).loc main_arg3)) 0 := by
  show after hostOps1 (W2 m ρ c) _ = _
  rw [Cert.KHost1.w0, W2_arg3, Cert.KHost.slice_wblk0]
theorem W3_v68 : W3 m ρ c (Proc.devRef .tc main_v68) = Cert.Spec.wblk (m ((c.tc : Thread nD τ).loc main_arg3)) 1 := by
  show after hostOps1 (W2 m ρ c) _ = _
  rw [Cert.KHost1.w1, W2_arg3, Cert.KHost.slice_wblk1]
theorem W3_v69 : W3 m ρ c (Proc.devRef .tc main_v69) = Cert.Spec.wblk (m ((c.tc : Thread nD τ).loc main_arg3)) 2 := by
  show after hostOps1 (W2 m ρ c) _ = _
  rw [Cert.KHost1.w2, W2_arg3, Cert.KHost.slice_wblk2]
theorem W3_v70 : W3 m ρ c (Proc.devRef .tc main_v70) = Cert.Spec.wblk (m ((c.tc : Thread nD τ).loc main_arg3)) 3 := by
  show after hostOps1 (W2 m ρ c) _ = _
  rw [Cert.KHost1.w3, W2_arg3, Cert.KHost.slice_wblk3]
theorem W3_v71 : W3 m ρ c (Proc.devRef .tc main_v71) = Cert.Spec.brow (m ((c.tc : Thread nD τ).loc main_arg5)) := by
  show after hostOps1 (W2 m ρ c) _ = _
  rw [Cert.KHost1.bias, W2_arg5, Cert.KHost.reshape_brow]
theorem W3_v1 : W3 m ρ c (Proc.devRef .tc main_v1) = (Cert.Spec.rowOf (m ((c.tc : Thread nD τ).loc main_arg1))) := (Cert.KHost1.keep_v1 (W2 m ρ c)).trans (W2_v1 m ρ c)
theorem W3_v3 : W3 m ρ c (Proc.devRef .tc main_v3) = (Cert.Spec.colOf (m ((c.tc : Thread nD τ).loc main_arg1))) := (Cert.KHost1.keep_v3 (W2 m ρ c)).trans (W2_v3 m ρ c)
theorem W3_arg2 : W3 m ρ c (Proc.devRef .tc main_arg2) = (m ((c.tc : Thread nD τ).loc main_arg2)) := (Cert.KHost1.keep_arg2 (W2 m ρ c)).trans (W2_arg2 m ρ c)
theorem W3_arg6 : W3 m ρ c (Proc.devRef .tc main_arg6) = (m ((c.tc : Thread nD τ).loc main_arg6)) := (Cert.KHost1.keep_arg6 (W2 m ρ c)).trans (W2_arg6 m ρ c)
theorem W3_arg7 : W3 m ρ c (Proc.devRef .tc main_arg7) = (m ((c.tc : Thread nD τ).loc main_arg7)) := (Cert.KHost1.keep_arg7 (W2 m ρ c)).trans (W2_arg7 m ρ c)
theorem W3_arg8 : W3 m ρ c (Proc.devRef .tc main_arg8) = (m ((c.tc : Thread nD τ).loc main_arg8)) := (Cert.KHost1.keep_arg8 (W2 m ρ c)).trans (W2_arg8 m ρ c)

/-! ## After the first linear region -/

theorem W4_v1 : W4 m ρ c (Proc.devRef .tc main_v1) = (Cert.Spec.rowOf (m ((c.tc : Thread nD τ).loc main_arg1))) := (W4_of_ne m ρ c main_v1 (by decide)).trans (W3_v1 m ρ c)
theorem W4_v3 : W4 m ρ c (Proc.devRef .tc main_v3) = (Cert.Spec.colOf (m ((c.tc : Thread nD τ).loc main_arg1))) := (W4_of_ne m ρ c main_v3 (by decide)).trans (W3_v3 m ρ c)
theorem W4_arg2 : W4 m ρ c (Proc.devRef .tc main_arg2) = (m ((c.tc : Thread nD τ).loc main_arg2)) := (W4_of_ne m ρ c main_arg2 (by decide)).trans (W3_arg2 m ρ c)
theorem W4_arg6 : W4 m ρ c (Proc.devRef .tc main_arg6) = (m ((c.tc : Thread nD τ).loc main_arg6)) := (W4_of_ne m ρ c main_arg6 (by decide)).trans (W3_arg6 m ρ c)
theorem W4_arg7 : W4 m ρ c (Proc.devRef .tc main_arg7) = (m ((c.tc : Thread nD τ).loc main_arg7)) := (W4_of_ne m ρ c main_arg7 (by decide)).trans (W3_arg7 m ρ c)
theorem W4_arg8 : W4 m ρ c (Proc.devRef .tc main_arg8) = (m ((c.tc : Thread nD τ).loc main_arg8)) := (W4_of_ne m ρ c main_arg8 (by decide)).trans (W3_arg8 m ρ c)

theorem W4_v72 (R : RegionValues) : W4 m ρ c (Proc.devRef .tc main_v72) = (Cert.Spec.layerK (m ((c.tc : Thread nD τ).loc main_arg0)) (Cert.Spec.rowOf (m ((c.tc : Thread nD τ).loc main_arg1))) (Cert.Spec.colOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) := by
  refine ((W4_arr m ρ c 9).trans (R.lin1 (V3 m ρ) c)).trans ?_
  show Cert.Spec.linK (R := 50000) (W3 m ρ c (Proc.devRef .tc main_v35)) (W3 m ρ c (Proc.devRef .tc main_v16))
    (W3 m ρ c (Proc.devRef .tc main_v66)) (W3 m ρ c (Proc.devRef .tc main_v47)) (W3 m ρ c (Proc.devRef .tc main_v67))
    (W3 m ρ c (Proc.devRef .tc main_v68)) (W3 m ρ c (Proc.devRef .tc main_v69)) (W3 m ρ c (Proc.devRef .tc main_v70))
    (W3 m ρ c (Proc.devRef .tc main_v71)) = _
  rw [W3_v35 m ρ c, W3_v16 m ρ c R, W3_v66 m ρ c, W3_v47 m ρ c R, W3_v67, W3_v68, W3_v69, W3_v70, W3_v71]
  rfl

/-! ## After the second transform region -/

theorem W5_v1 : W5 m ρ c (Proc.devRef .tc main_v1) = (Cert.Spec.rowOf (m ((c.tc : Thread nD τ).loc main_arg1))) := (W5_of_ne m ρ c main_v1 (by decide)).trans (W4_v1 m ρ c)
theorem W5_v3 : W5 m ρ c (Proc.devRef .tc main_v3) = (Cert.Spec.colOf (m ((c.tc : Thread nD τ).loc main_arg1))) := (W5_of_ne m ρ c main_v3 (by decide)).trans (W4_v3 m ρ c)
theorem W5_arg6 : W5 m ρ c (Proc.devRef .tc main_arg6) = (m ((c.tc : Thread nD τ).loc main_arg6)) := (W5_of_ne m ρ c main_arg6 (by decide)).trans (W4_arg6 m ρ c)
theorem W5_arg8 : W5 m ρ c (Proc.devRef .tc main_arg8) = (m ((c.tc : Thread nD τ).loc main_arg8)) := (W5_of_ne m ρ c main_arg8 (by decide)).trans (W4_arg8 m ρ c)
theorem W5_v72 (R : RegionValues) : W5 m ρ c (Proc.devRef .tc main_v72) = (Cert.Spec.layerK (m ((c.tc : Thread nD τ).loc main_arg0)) (Cert.Spec.rowOf (m ((c.tc : Thread nD τ).loc main_arg1))) (Cert.Spec.colOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) := (W5_of_ne m ρ c main_v72 (by decide)).trans (W4_v72 m ρ c R)

theorem W5_v73 (R : RegionValues) : W5 m ρ c (Proc.devRef .tc main_v73) = (matProd (R := 800000) (K := 2) (N := 64) (m ((c.tc : Thread nD τ).loc main_arg2)) (m ((c.tc : Thread nD τ).loc main_arg7))) := by
  refine ((W5_arr m ρ c 2).trans (R.elt2 (V4 m ρ) c)).trans ?_
  show matProd (R := 800000) (K := 2) (N := 64) (W4 m ρ c (Proc.devRef .tc main_arg2)) (W4 m ρ c (Proc.devRef .tc main_arg7)) = _
  rw [W4_arg2, W4_arg7]

/-! ## After the third host stretch -/

theorem W6_v104 (R : RegionValues) : W6 m ρ c (Proc.devRef .tc main_v104) = Cert.Spec.smean (Cert.Spec.take (Cert.Spec.layerK (m ((c.tc : Thread nD τ).loc main_arg0)) (Cert.Spec.rowOf (m ((c.tc : Thread nD τ).loc main_arg1))) (Cert.Spec.colOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (Cert.Spec.colOf (m ((c.tc : Thread nD τ).loc main_arg1)))) (Cert.Spec.rowOf (m ((c.tc : Thread nD τ).loc main_arg1))) := by
  show after hostOps3 (W5 m ρ c) _ = _
  rw [Cert.KHost3.out, W5_v72 m ρ c R, W5_v3, W5_v1]
theorem W6_v85 (R : RegionValues) : W6 m ρ c (Proc.devRef .tc main_v85) = Cert.Spec.smean (matProd (R := 800000) (K := 2) (N := 64) (m ((c.tc : Thread nD τ).loc main_arg2)) (m ((c.tc : Thread nD τ).loc main_arg7))) (Cert.Spec.rowOf (m ((c.tc : Thread nD τ).loc main_arg1))) := by
  show after hostOps3 (W5 m ρ c) _ = _
  rw [Cert.KHost3.opinion, W5_v73 m ρ c R, W5_v1]
theorem W6_v135 (R : RegionValues) : W6 m ρ c (Proc.devRef .tc main_v135) = Cert.Spec.smean (Cert.Spec.take (Cert.Spec.layerK (m ((c.tc : Thread nD τ).loc main_arg0)) (Cert.Spec.rowOf (m ((c.tc : Thread nD τ).loc main_arg1))) (Cert.Spec.colOf (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5))) (Cert.Spec.rowOf (m ((c.tc : Thread nD τ).loc main_arg1)))) (Cert.Spec.colOf (m ((c.tc : Thread nD τ).loc main_arg1))) := by
  show after hostOps3 (W5 m ρ c) _ = _
  rw [Cert.KHost3.inn, W5_v72 m ρ c R, W5_v3, W5_v1]
theorem W6_v116 (R : RegionValues) : W6 m ρ c (Proc.devRef .tc main_v116) = Cert.Spec.smean (matProd (R := 800000) (K := 2) (N := 64) (m ((c.tc : Thread nD τ).loc main_arg2)) (m ((c.tc : Thread nD τ).loc main_arg7))) (Cert.Spec.colOf (m ((c.tc : Thread nD τ).loc main_arg1))) := by
  show after hostOps3 (W5 m ρ c) _ = _
  rw [Cert.KHost3.innop, W5_v73 m ρ c R, W5_v3]
theorem W6_v136 : W6 m ρ c (Proc.devRef .tc main_v136) = Cert.Spec.wblk (m ((c.tc : Thread nD τ).loc main_arg6)) 0 := by
  show after hostOps3 (W5 m ρ c) _ = _
  rw [Cert.KHost3.w0, W5_arg6, Cert.KHost.slice_wblk0]
theorem W6_v137 : W6 m ρ c (Proc.devRef .tc main_v137) = Cert.Spec.wblk (m ((c.tc : Thread nD τ).loc main_arg6)) 1 := by
  show after hostOps3 (W5 m ρ c) _ = _
  rw [Cert.KHost3.w1, W5_arg6, Cert.KHost.slice_wblk1]
theorem W6_v138 : W6 m ρ c (Proc.devRef .tc main_v138) = Cert.Spec.wblk (m ((c.tc : Thread nD τ).loc main_arg6)) 2 := by
  show after hostOps3 (W5 m ρ c) _ = _
  rw [Cert.KHost3.w2, W5_arg6, Cert.KHost.slice_wblk2]
theorem W6_v139 : W6 m ρ c (Proc.devRef .tc main_v139) = Cert.Spec.wblk (m ((c.tc : Thread nD τ).loc main_arg6)) 3 := by
  show after hostOps3 (W5 m ρ c) _ = _
  rw [Cert.KHost3.w3, W5_arg6, Cert.KHost.slice_wblk3]
theorem W6_v140 : W6 m ρ c (Proc.devRef .tc main_v140) = Cert.Spec.brow (m ((c.tc : Thread nD τ).loc main_arg8)) := by
  show after hostOps3 (W5 m ρ c) _ = _
  rw [Cert.KHost3.bias, W5_arg8, Cert.KHost.reshape_brow]

/-! ## After the second linear region: the result -/

/-- The last fold at the result buffer is the two-layer network of the launched arguments. -/
theorem W7_result (R : RegionValues) :
    W7 m ρ c (Proc.devRef .tc main_v141) = Cert.Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine ((W7_arr m ρ c 9).trans (R.lin3 (V6 m ρ) c)).trans ?_
  show Cert.Spec.linK (R := 50000) (W6 m ρ c (Proc.devRef .tc main_v104)) (W6 m ρ c (Proc.devRef .tc main_v85))
    (W6 m ρ c (Proc.devRef .tc main_v135)) (W6 m ρ c (Proc.devRef .tc main_v116)) (W6 m ρ c (Proc.devRef .tc main_v136))
    (W6 m ρ c (Proc.devRef .tc main_v137)) (W6 m ρ c (Proc.devRef .tc main_v138)) (W6 m ρ c (Proc.devRef .tc main_v139))
    (W6 m ρ c (Proc.devRef .tc main_v140)) = _
  rw [W6_v104 m ρ c R, W6_v85 m ρ c R, W6_v135 m ρ c R, W6_v116 m ρ c R, W6_v136, W6_v137, W6_v138, W6_v139, W6_v140]
  rfl

end Cert.KFold

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«178492_j13073880449170_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«178492_j13073880449170_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.RegionValueElt.lean ====
/-
  What the two label-transform regions leave in their output arrays.

  Each of the two regions multiplies the 800000 × 2 edge labels by a 2 × 64 transform, 10000 rows at a grid point:
  point `t` of 80 reads rows `10000 t … 10000 t + 9999` of the labels and the whole transform, multiplies them on
  the matrix unit into a zero accumulator, and writes the 10000 × 64 product back as rows `10000 t …` of the output.
  Row `r` of a product depends on row `r` of the left operand only, so block `t` of the output is block `t` of the
  ONE product of the whole labels with the transform; the 80 blocks tile the 800000 rows (row `r` lies in block
  `r / 10000`), so the output array ends holding that product. A change of float format is the identity on the
  extended reals, and the matrix unit's product into a zero accumulator is the plain sum of products: nothing here
  needs a finiteness hypothesis. The entry contents of the region's arrays stay a variable throughout.
-/
import proofs.«178492_j13073880449170_2_alg».proof.Proof.Gen.KernelIdeal.Frame
import proofs.«178492_j13073880449170_2_alg».proof.Proof.LibMatProd
import proofs.«178492_j13073880449170_2_alg».proof.Proof.LibDotLists
import proofs.«178492_j13073880449170_2_alg».proof.Proof.LibRowBlock
import Idealize.ShloMosaic.Lib.Pipeline.Value
import Idealize.ShloMosaic.Lib.Tactic

set_option maxRecDepth 16384

noncomputable section

open scoped BigOperators

namespace Cert.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Linear

variable (V : (c : Dev nD) → (b : Ref sig .tc) → Buf (Elt Ideal) ((c : Thread nD τ).loc b))

/-- The zero offsets of a whole-buffer access, as a constant function. -/
theorem eltZeroOffsets : (![0, 0] : Fin 2 → Nat) = fun _ => 0 := funext fun a => by fin_cases a <;> rfl

/-! ## Region 0: the labels times `the first layer's` transform -/

/-- The body's one stored value is the product of the loaded label block with the loaded transform. -/
theorem eltPay0 (x : Vec Ideal S10000x2 .f32) (w : Vec Ideal S2x64 .f32) :
    k0_pay1 (F := Ideal) x w = matProd (R := 10000) (K := 2) (N := 64) x w := by
  unfold k0_pay1
  exact matmul_zero_eq (contracts_of_lists _ rfl rfl rfl rfl rfl rfl) none _ _

/-- Entry `j` of the body's product is entry `i` of the whole product `X · W` as soon as row `j 0` of the block is
    row `i 0` of `X` and column `j 1` of the loaded transform is column `i 1` of `W`. -/
theorem eltEntry0 (X : (Mat 800000 2).Idx → EReal) (W : (Mat 2 64).Idx → EReal)
    (x : Vec Ideal S10000x2 .f32) (w : Vec Ideal S2x64 .f32) (j : S10000x64.Idx) (i : S800000x64.Idx)
    (hx : ∀ k : Fin 2, x (ix2 (n0 := 10000) (n1 := 2) (j 0) k) = X (ix2 (n0 := 800000) (n1 := 2) (i 0) k))
    (hw : ∀ k : Fin 2, w (ix2 (n0 := 2) (n1 := 64) k (j 1)) = W (ix2 (n0 := 2) (n1 := 64) k (i 1))) :
    k0_pay1 (F := Ideal) x w j = matProd (R := 800000) (K := 2) (N := 64) X W i :=
  (congrFun (eltPay0 x w) j).trans (matProd_of_rows X W x w j i hx hw)

/-- The index maps at a grid point: the labels' and the output's blocks are block `t` of their rows, the transform's
    block is the whole array (decided over the 80 points). -/
theorem eltIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem eltFlushed0 (c : Dev nD) (t : Fin cfg0.N) :
    (dat0 (F := Ideal) V c).flushed 2 t
      = ((cfg0.win 2).blk t).view.read (Elt Ideal)
          (matProd (R := 800000) (K := 2) (N := 64) (V c main_arg2) (V c main_arg4)) := by
  show (cfg0.win 2).cut (grid0.coords t) ((dat0 (F := Ideal) V c).after 2 t) = _
  rw [after0_2]
  unfold out0_2
  rw [View.canon_unit_zero eltZeroOffsets]
  simp only [View.ld_unit_zero (S := S10000x2) eltZeroOffsets, View.ld_unit_zero (S := S2x64) eltZeroOffsets]
  obtain ⟨e00, e01, e10, e11, e20, e21⟩ := eltIdx0 t
  funext j
  show k0_pay1 (F := Ideal) (iblk0 V c 0 t) (iblk0 V c 1 t) j
    = matProd (R := 800000) (K := 2) (N := 64) (V c main_arg2) (V c main_arg4) (((cfg0.win 2).blk t).view.emb j)
  refine eltEntry0 (V c main_arg2) (V c main_arg4) (iblk0 V c 0 t) (iblk0 V c 1 t) j
    (((cfg0.win 2).blk t).view.emb j) (fun k => ?_) (fun k => ?_)
  · show V c main_arg2 (((cfg0.win 0).blk t).view.emb (ix2 (n0 := 10000) (n1 := 2) (j 0) k))
      = V c main_arg2 (ix2 (n0 := 800000) (n1 := 2) ((((cfg0.win 2).blk t).view.emb j) 0) k)
    congr 1
    funext a
    apply Fin.ext
    match a with
    | ⟨0, _⟩ =>
      show win0_0.index t (0 : Fin 2) * 10000 + 1 * (j 0).val = win0_2.index t (0 : Fin 2) * 10000 + 1 * (j 0).val
      rw [e00, e20]
    | ⟨1, _⟩ =>
      show win0_0.index t (1 : Fin 2) * 2 + 1 * k.val = k.val
      rw [e01]; omega
  · show V c main_arg4 (((cfg0.win 1).blk t).view.emb (ix2 (n0 := 2) (n1 := 64) k (j 1)))
      = V c main_arg4 (ix2 (n0 := 2) (n1 := 64) k ((((cfg0.win 2).blk t).view.emb j) 1))
    congr 1
    funext a
    apply Fin.ext
    match a with
    | ⟨0, _⟩ =>
      show win0_1.index t (0 : Fin 2) * 2 + 1 * k.val = k.val
      rw [e10]; omega
    | ⟨1, _⟩ =>
      show win0_1.index t (1 : Fin 2) * 64 + 1 * (j 1).val = win0_2.index t (1 : Fin 2) * 64 + 1 * (j 1).val
      rw [e11, e21]

/-- An index of the output array is in point `t`'s block iff each coordinate is in the block's range on its axis. -/
theorem eltMem0 (t : Fin cfg0.N) (i : S800000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- Row `r` of the output lies in the block of point `r / 10000`: the 80 blocks cover the array. -/
theorem eltCover0 (i : S800000x64.Idx) :
    ∃ t : Fin cfg0.N, (cfg0.win 2).flush t = true ∧ i ∈ ((cfg0.win 2).blk t).view.set := by
  have hi0 : (i 0).val < 800000 := (i 0).isLt
  have hi1 : (i 1).val < 64 := (i 1).isLt
  have hN : grid0.N = 80 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e20, e21⟩ := eltIdx0 t
  refine ⟨t, flush0_2 t, ?_⟩
  rw [eltMem0]
  intro a
  match a with
  | ⟨0, _⟩ =>
    show win0_2.index t (0 : Fin 2) * 10000 ≤ (i 0).val ∧ (i 0).val < win0_2.index t (0 : Fin 2) * 10000 + 10000
    rw [e20, ht]; omega
  | ⟨1, _⟩ =>
    show win0_2.index t (1 : Fin 2) * 64 ≤ (i 1).val ∧ (i 1).val < win0_2.index t (1 : Fin 2) * 64 + 64
    rw [e21]; omega

/-- THE OUTPUT ARRAY of region 0 after its write-backs: the whole labels times the whole transform. -/
theorem elt0 (c : Dev nD) :
    (dat0 (F := Ideal) V c).arrAt 2 cfg0.N
      = matProd (R := 800000) (K := 2) (N := 64) (V c main_arg2) (V c main_arg4) :=
  (dat0 (F := Ideal) V c).arrAt_eq_of_cover 2 _ (fun t _ => eltFlushed0 V c t) eltCover0

/-! ## Region 2: the labels times `the second layer's` transform -/

/-- The body's one stored value is the product of the loaded label block with the loaded transform. -/
theorem eltPay2 (x : Vec Ideal S10000x2 .f32) (w : Vec Ideal S2x64 .f32) :
    k2_pay1 (F := Ideal) x w = matProd (R := 10000) (K := 2) (N := 64) x w := by
  unfold k2_pay1
  exact matmul_zero_eq (contracts_of_lists _ rfl rfl rfl rfl rfl rfl) none _ _

/-- Entry `j` of the body's product is entry `i` of the whole product `X · W` as soon as row `j 0` of the block is
    row `i 0` of `X` and column `j 1` of the loaded transform is column `i 1` of `W`. -/
theorem eltEntry2 (X : (Mat 800000 2).Idx → EReal) (W : (Mat 2 64).Idx → EReal)
    (x : Vec Ideal S10000x2 .f32) (w : Vec Ideal S2x64 .f32) (j : S10000x64.Idx) (i : S800000x64.Idx)
    (hx : ∀ k : Fin 2, x (ix2 (n0 := 10000) (n1 := 2) (j 0) k) = X (ix2 (n0 := 800000) (n1 := 2) (i 0) k))
    (hw : ∀ k : Fin 2, w (ix2 (n0 := 2) (n1 := 64) k (j 1)) = W (ix2 (n0 := 2) (n1 := 64) k (i 1))) :
    k2_pay1 (F := Ideal) x w j = matProd (R := 800000) (K := 2) (N := 64) X W i :=
  (congrFun (eltPay2 x w) j).trans (matProd_of_rows X W x w j i hx hw)

/-- The index maps at a grid point: the labels' and the output's blocks are block `t` of their rows, the transform's
    block is the whole array (decided over the 80 points). -/
theorem eltIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem eltFlushed2 (c : Dev nD) (t : Fin cfg2.N) :
    (dat2 (F := Ideal) V c).flushed 2 t
      = ((cfg2.win 2).blk t).view.read (Elt Ideal)
          (matProd (R := 800000) (K := 2) (N := 64) (V c main_arg2) (V c main_arg7)) := by
  show (cfg2.win 2).cut (grid2.coords t) ((dat2 (F := Ideal) V c).after 2 t) = _
  rw [after2_2]
  unfold out2_2
  rw [View.canon_unit_zero eltZeroOffsets]
  simp only [View.ld_unit_zero (S := S10000x2) eltZeroOffsets, View.ld_unit_zero (S := S2x64) eltZeroOffsets]
  obtain ⟨e00, e01, e10, e11, e20, e21⟩ := eltIdx2 t
  funext j
  show k2_pay1 (F := Ideal) (iblk2 V c 0 t) (iblk2 V c 1 t) j
    = matProd (R := 800000) (K := 2) (N := 64) (V c main_arg2) (V c main_arg7) (((cfg2.win 2).blk t).view.emb j)
  refine eltEntry2 (V c main_arg2) (V c main_arg7) (iblk2 V c 0 t) (iblk2 V c 1 t) j
    (((cfg2.win 2).blk t).view.emb j) (fun k => ?_) (fun k => ?_)
  · show V c main_arg2 (((cfg2.win 0).blk t).view.emb (ix2 (n0 := 10000) (n1 := 2) (j 0) k))
      = V c main_arg2 (ix2 (n0 := 800000) (n1 := 2) ((((cfg2.win 2).blk t).view.emb j) 0) k)
    congr 1
    funext a
    apply Fin.ext
    match a with
    | ⟨0, _⟩ =>
      show win2_0.index t (0 : Fin 2) * 10000 + 1 * (j 0).val = win2_2.index t (0 : Fin 2) * 10000 + 1 * (j 0).val
      rw [e00, e20]
    | ⟨1, _⟩ =>
      show win2_0.index t (1 : Fin 2) * 2 + 1 * k.val = k.val
      rw [e01]; omega
  · show V c main_arg7 (((cfg2.win 1).blk t).view.emb (ix2 (n0 := 2) (n1 := 64) k (j 1)))
      = V c main_arg7 (ix2 (n0 := 2) (n1 := 64) k ((((cfg2.win 2).blk t).view.emb j) 1))
    congr 1
    funext a
    apply Fin.ext
    match a with
    | ⟨0, _⟩ =>
      show win2_1.index t (0 : Fin 2) * 2 + 1 * k.val = k.val
      rw [e10]; omega
    | ⟨1, _⟩ =>
      show win2_1.index t (1 : Fin 2) * 64 + 1 * (j 1).val = win2_2.index t (1 : Fin 2) * 64 + 1 * (j 1).val
      rw [e11, e21]

/-- An index of the output array is in point `t`'s block iff each coordinate is in the block's range on its axis. -/
theorem eltMem2 (t : Fin cfg2.N) (i : S800000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v73).slice (win2_2.rect t)).set ↔ _
  rw [View.set_slice_whole, Rect.mem_set_unit]
  exact Iff.rfl

/-- Row `r` of the output lies in the block of point `r / 10000`: the 80 blocks cover the array. -/
theorem eltCover2 (i : S800000x64.Idx) :
    ∃ t : Fin cfg2.N, (cfg2.win 2).flush t = true ∧ i ∈ ((cfg2.win 2).blk t).view.set := by
  have hi0 : (i 0).val < 800000 := (i 0).isLt
  have hi1 : (i 1).val < 64 := (i 1).isLt
  have hN : grid2.N = 80 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, e20, e21⟩ := eltIdx2 t
  refine ⟨t, flush2_2 t, ?_⟩
  rw [eltMem2]
  intro a
  match a with
  | ⟨0, _⟩ =>
    show win2_2.index t (0 : Fin 2) * 10000 ≤ (i 0).val ∧ (i 0).val < win2_2.index t (0 : Fin 2) * 10000 + 10000
    rw [e20, ht]; omega
  | ⟨1, _⟩ =>
    show win2_2.index t (1 : Fin 2) * 64 ≤ (i 1).val ∧ (i 1).val < win2_2.index t (1 : Fin 2) * 64 + 64
    rw [e21]; omega

/-- THE OUTPUT ARRAY of region 2 after its write-backs: the whole labels times the whole transform. -/
theorem elt2 (c : Dev nD) :
    (dat2 (F := Ideal) V c).arrAt 2 cfg2.N
      = matProd (R := 800000) (K := 2) (N := 64) (V c main_arg2) (V c main_arg7) :=
  (dat2 (F := Ideal) V c).arrAt_eq_of_cover 2 _ (fun t _ => eltFlushed2 V c t) eltCover2

end Cert.RegionValue

end
-- ==== Proof.RegionValueLin.lean ====
/-
  What the two linear-step regions leave in their output arrays.

  Each of the two regions takes four 50000 × 64 aggregates, four 64 × 64 weights and a 1 × 64 bias row, 5000 rows at a
  grid point: point `t` of 10 reads rows `5000 t … 5000 t + 4999` of each aggregate and the whole weights and bias,
  multiplies each aggregate block by its weight on the matrix unit into a zero accumulator, adds the four products
  in order, adds the bias row to every row, takes the maximum with zero, and writes the 5000 × 64 result back as rows
  `5000 t …` of the output. Entry (r, q) of that result depends on row `r` of each aggregate, column `q` of each weight
  and entry `q` of the bias only, so block `t` of the output is block `t` of the ONE whole-array function "four
  products added, bias on every row, maximum with zero" of the whole arrays; the 10 blocks tile the 50000 rows (row
  `r` lies in block `r / 5000`), so the output array ends holding that function. A change of float format and a
  cast to the same shape are the identity, and the matrix unit's product into a zero accumulator is the plain sum of
  products: nothing here needs a finiteness hypothesis. The entry contents of the region's arrays stay a variable.
-/
import proofs.«178492_j13073880449170_2_alg».proof.Proof.Gen.KernelIdeal.Frame
import proofs.«178492_j13073880449170_2_alg».proof.Proof.Spec
import proofs.«178492_j13073880449170_2_alg».proof.Proof.LibMatProd
import proofs.«178492_j13073880449170_2_alg».proof.Proof.LibDotLists
import proofs.«178492_j13073880449170_2_alg».proof.Proof.LibRowBlock
import Idealize.ShloMosaic.Lib.Pipeline.Value
import Idealize.ShloMosaic.Lib.ValueLayout
import Idealize.ShloMosaic.Lib.Tactic

set_option maxRecDepth 16384

noncomputable section

open scoped BigOperators

namespace Cert.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.Linear

variable (V : (c : Dev nD) → (b : Ref sig .tc) → Buf (Elt Ideal) ((c : Thread nD τ).loc b))

/-- The zero offsets of a whole-buffer access, as a constant function. -/
theorem linZeroOffsets : (![0, 0] : Fin 2 → Nat) = fun _ => 0 := funext fun a => by fin_cases a <;> rfl

/-- The linear step at entry `j` of a block of rows is the linear step at entry `i` of the whole arrays as soon as
    row `j 0` of each block is row `i 0` of its array, column `j 1` of each loaded weight is column `i 1` of its array,
    and entry `j 1` of the loaded bias row is entry `i 1` of the bias. -/
theorem linK_of_rows {R r : Nat} (A0 A1 A2 A3 : (Mat R 64).Idx → EReal) (W0 W1 W2 W3 : (Mat 64 64).Idx → EReal)
    (B : (Mat 1 64).Idx → EReal) (a0 a1 a2 a3 : (Mat r 64).Idx → EReal) (w0 w1 w2 w3 : (Mat 64 64).Idx → EReal)
    (b : (Mat 1 64).Idx → EReal) (j : (Mat r 64).Idx) (i : (Mat R 64).Idx)
    (h0 : ∀ k : Fin 64, a0 (ix2 (n0 := r) (n1 := 64) (j 0) k) = A0 (ix2 (n0 := R) (n1 := 64) (i 0) k))
    (h1 : ∀ k : Fin 64, a1 (ix2 (n0 := r) (n1 := 64) (j 0) k) = A1 (ix2 (n0 := R) (n1 := 64) (i 0) k))
    (h2 : ∀ k : Fin 64, a2 (ix2 (n0 := r) (n1 := 64) (j 0) k) = A2 (ix2 (n0 := R) (n1 := 64) (i 0) k))
    (h3 : ∀ k : Fin 64, a3 (ix2 (n0 := r) (n1 := 64) (j 0) k) = A3 (ix2 (n0 := R) (n1 := 64) (i 0) k))
    (g0 : ∀ k : Fin 64, w0 (ix2 (n0 := 64) (n1 := 64) k (j 1)) = W0 (ix2 (n0 := 64) (n1 := 64) k (i 1)))
    (g1 : ∀ k : Fin 64, w1 (ix2 (n0 := 64) (n1 := 64) k (j 1)) = W1 (ix2 (n0 := 64) (n1 := 64) k (i 1)))
    (g2 : ∀ k : Fin 64, w2 (ix2 (n0 := 64) (n1 := 64) k (j 1)) = W2 (ix2 (n0 := 64) (n1 := 64) k (i 1)))
    (g3 : ∀ k : Fin 64, w3 (ix2 (n0 := 64) (n1 := 64) k (j 1)) = W3 (ix2 (n0 := 64) (n1 := 64) k (i 1)))
    (hb : b (ix2 (n0 := 1) (n1 := 64) 0 (j 1)) = B (ix2 (n0 := 1) (n1 := 64) 0 (i 1))) :
    Cert.Spec.linK (R := r) a0 a1 a2 a3 w0 w1 w2 w3 b j = Cert.Spec.linK (R := R) A0 A1 A2 A3 W0 W1 W2 W3 B i := by
  show max ((((matProd a0 w0 j + matProd a1 w1 j) + matProd a2 w2 j) + matProd a3 w3 j)
      + b (ix2 (n0 := 1) (n1 := 64) 0 (j 1))) 0
    = max ((((matProd A0 W0 i + matProd A1 W1 i) + matProd A2 W2 i) + matProd A3 W3 i)
      + B (ix2 (n0 := 1) (n1 := 64) 0 (i 1))) 0
  rw [matProd_of_rows A0 W0 a0 w0 j i h0 g0, matProd_of_rows A1 W1 a1 w1 j i h1 g1,
    matProd_of_rows A2 W2 a2 w2 j i h2 g2, matProd_of_rows A3 W3 a3 w3 j i h3 g3, hb]

/-! ## Region 1 -/

/-- The body's stored value — the maximum of the accumulated sum and the zero splat — is the linear step of the
    loaded blocks: four products added in order, the bias row on every row, the maximum with zero. -/
theorem linPay1 (a0 a1 a2 a3 : Vec Ideal S5000x64 .f32) (w0 w1 w2 w3 : Vec Ideal S64x64 .f32) (b : Vec Ideal S1x64 .f32) :
    k1_pay1 (F := Ideal) (k1_pay2 a0 w0 a1 w1 a2 w2 a3 w3 b) (k1_pay3 (F := Ideal))
      = Cert.Spec.linK (R := 5000) a0 a1 a2 a3 w0 w1 w2 w3 b := by
  have hc : Contracts dot_S5000x64_S64x64_S5000x64_1_0_0_1_n_n := contracts_of_lists _ rfl rfl rfl rfl rfl rfl
  unfold k1_pay1 k1_pay2 k1_pay3
  simp only [shapeCast_self]
  funext j
  obtain ⟨p, q, rfl⟩ : ∃ (p : Fin 5000) (q : Fin 64), j = ix2 p q := ⟨j 0, j 1, eq_ix2 j⟩
  have e0 : (matmul dot_S5000x64_S64x64_S5000x64_1_0_0_1_n_n none (truncf .bf16 a0 bitsLt_bf16_f32) (truncf .bf16 w0 bitsLt_bf16_f32) (constant (F := Ideal) S5000x64 .f32 0x00000000#32) (ix2 (n0 := 5000) (n1 := 64) p q) : EReal) = matProd a0 w0 (ix2 p q) :=
    congrFun (matmul_zero_eq hc none (truncf .bf16 a0 bitsLt_bf16_f32) (truncf .bf16 w0 bitsLt_bf16_f32)) (ix2 p q)
  have e1 : (matmul dot_S5000x64_S64x64_S5000x64_1_0_0_1_n_n none (truncf .bf16 a1 bitsLt_bf16_f32) (truncf .bf16 w1 bitsLt_bf16_f32) (constant (F := Ideal) S5000x64 .f32 0x00000000#32) (ix2 (n0 := 5000) (n1 := 64) p q) : EReal) = matProd a1 w1 (ix2 p q) :=
    congrFun (matmul_zero_eq hc none (truncf .bf16 a1 bitsLt_bf16_f32) (truncf .bf16 w1 bitsLt_bf16_f32)) (ix2 p q)
  have e2 : (matmul dot_S5000x64_S64x64_S5000x64_1_0_0_1_n_n none (truncf .bf16 a2 bitsLt_bf16_f32) (truncf .bf16 w2 bitsLt_bf16_f32) (constant (F := Ideal) S5000x64 .f32 0x00000000#32) (ix2 (n0 := 5000) (n1 := 64) p q) : EReal) = matProd a2 w2 (ix2 p q) :=
    congrFun (matmul_zero_eq hc none (truncf .bf16 a2 bitsLt_bf16_f32) (truncf .bf16 w2 bitsLt_bf16_f32)) (ix2 p q)
  have e3 : (matmul dot_S5000x64_S64x64_S5000x64_1_0_0_1_n_n none (truncf .bf16 a3 bitsLt_bf16_f32) (truncf .bf16 w3 bitsLt_bf16_f32) (constant (F := Ideal) S5000x64 .f32 0x00000000#32) (ix2 (n0 := 5000) (n1 := 64) p q) : EReal) = matProd a3 w3 (ix2 p q) :=
    congrFun (matmul_zero_eq hc none (truncf .bf16 a3 bitsLt_bf16_f32) (truncf .bf16 w3 bitsLt_bf16_f32)) (ix2 p q)
  have eb : (broadcastTo S5000x64 b broadcasts_S1x64_S5000x64 (ix2 (n0 := 5000) (n1 := 64) p q) : EReal)
      = b (ix2 (n0 := 1) (n1 := 64) 0 q) := broadcastTo_1b_ab_apply b broadcasts_S1x64_S5000x64 p q
  have ez : (Scalar.ofBits (F := Ideal) .f32 0x00000000#32 : EReal) = 0 := Ideal.ofBits_zero_f32
  show max (((((matmul dot_S5000x64_S64x64_S5000x64_1_0_0_1_n_n none (truncf .bf16 a0 bitsLt_bf16_f32) (truncf .bf16 w0 bitsLt_bf16_f32) (constant (F := Ideal) S5000x64 .f32 0x00000000#32) (ix2 (n0 := 5000) (n1 := 64) p q) : EReal)
        + (matmul dot_S5000x64_S64x64_S5000x64_1_0_0_1_n_n none (truncf .bf16 a1 bitsLt_bf16_f32) (truncf .bf16 w1 bitsLt_bf16_f32) (constant (F := Ideal) S5000x64 .f32 0x00000000#32) (ix2 (n0 := 5000) (n1 := 64) p q) : EReal))
        + (matmul dot_S5000x64_S64x64_S5000x64_1_0_0_1_n_n none (truncf .bf16 a2 bitsLt_bf16_f32) (truncf .bf16 w2 bitsLt_bf16_f32) (constant (F := Ideal) S5000x64 .f32 0x00000000#32) (ix2 (n0 := 5000) (n1 := 64) p q) : EReal))
        + (matmul dot_S5000x64_S64x64_S5000x64_1_0_0_1_n_n none (truncf .bf16 a3 bitsLt_bf16_f32) (truncf .bf16 w3 bitsLt_bf16_f32) (constant (F := Ideal) S5000x64 .f32 0x00000000#32) (ix2 (n0 := 5000) (n1 := 64) p q) : EReal))
        + (broadcastTo S5000x64 b broadcasts_S1x64_S5000x64 (ix2 (n0 := 5000) (n1 := 64) p q) : EReal))
      (Scalar.ofBits (F := Ideal) .f32 0x00000000#32 : EReal)
    = max ((((matProd a0 w0 (ix2 p q) + matProd a1 w1 (ix2 p q)) + matProd a2 w2 (ix2 p q)) + matProd a3 w3 (ix2 p q))
        + b (ix2 (n0 := 1) (n1 := 64) 0 q)) 0
  rw [e0, e1, e2, e3, eb, ez]

/-- The index maps at a grid point: each aggregate's and the output's blocks are block `t` of their rows, each weight's
    and the bias's block is the whole array (decided over the 10 points). -/
theorem linIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

set_option maxHeartbeats 2000000 in
/-- What point `t` writes back is block `t` of the linear step of the whole arrays. -/
theorem linFlushed1 (c : Dev nD) (t : Fin cfg1.N) :
    (dat1 (F := Ideal) V c).flushed 9 t
      = ((cfg1.win 9).blk t).view.read (Elt Ideal)
          (Cert.Spec.linK (R := 50000) (V c main_v35) (V c main_v16) (V c main_v66) (V c main_v47) (V c main_v67) (V c main_v68) (V c main_v69) (V c main_v70) (V c main_v71)) := by
  show (cfg1.win 9).cut (grid1.coords t) ((dat1 (F := Ideal) V c).after 9 t) = _
  rw [after1_9]
  unfold out1_9
  rw [View.canon_unit_zero linZeroOffsets]
  simp only [View.ld_unit_zero (S := S5000x64) linZeroOffsets, View.ld_unit_zero (S := S64x64) linZeroOffsets,
    View.ld_unit_zero (S := S1x64) linZeroOffsets]
  obtain ⟨x0, x1, x2, x3, x4, x5, x6, x7, x8, e90, e91⟩ := linIdx1 t
  funext j
  show k1_pay1 (F := Ideal) (k1_pay2 (iblk1 V c 0 t) (iblk1 V c 4 t) (iblk1 V c 1 t) (iblk1 V c 5 t) (iblk1 V c 2 t) (iblk1 V c 6 t) (iblk1 V c 3 t) (iblk1 V c 7 t) (iblk1 V c 8 t)) (k1_pay3 (F := Ideal)) j
    = Cert.Spec.linK (R := 50000) (V c main_v35) (V c main_v16) (V c main_v66) (V c main_v47) (V c main_v67) (V c main_v68) (V c main_v69) (V c main_v70) (V c main_v71) (((cfg1.win 9).blk t).view.emb j)
  refine (congrFun (linPay1 (iblk1 V c 0 t) (iblk1 V c 1 t) (iblk1 V c 2 t) (iblk1 V c 3 t) (iblk1 V c 4 t) (iblk1 V c 5 t) (iblk1 V c 6 t) (iblk1 V c 7 t) (iblk1 V c 8 t)) j).trans ?_
  refine linK_of_rows (R := 50000) (r := 5000) (V c main_v35) (V c main_v16) (V c main_v66) (V c main_v47) (V c main_v67) (V c main_v68) (V c main_v69) (V c main_v70) (V c main_v71)
    (iblk1 V c 0 t) (iblk1 V c 1 t) (iblk1 V c 2 t) (iblk1 V c 3 t) (iblk1 V c 4 t) (iblk1 V c 5 t) (iblk1 V c 6 t) (iblk1 V c 7 t) (iblk1 V c 8 t)
    j (((cfg1.win 9).blk t).view.emb j)
    (fun k => ?_) (fun k => ?_) (fun k => ?_) (fun k => ?_) (fun k => ?_) (fun k => ?_) (fun k => ?_) (fun k => ?_) ?_
  · show V c main_v35 (((cfg1.win 0).blk t).view.emb (ix2 (n0 := 5000) (n1 := 64) (j 0) k))
      = V c main_v35 (ix2 (n0 := 50000) (n1 := 64) ((((cfg1.win 9).blk t).view.emb j) 0) k)
    congr 1
    funext a
    apply Fin.ext
    match a with
    | ⟨0, _⟩ =>
      show win1_0.index t (0 : Fin 2) * 5000 + 1 * (j 0).val = win1_9.index t (0 : Fin 2) * 5000 + 1 * (j 0).val
      rw [x0.1, e90]
    | ⟨1, _⟩ =>
      show win1_0.index t (1 : Fin 2) * 64 + 1 * k.val = k.val
      rw [x0.2]; omega
  · show V c main_v16 (((cfg1.win 1).blk t).view.emb (ix2 (n0 := 5000) (n1 := 64) (j 0) k))
      = V c main_v16 (ix2 (n0 := 50000) (n1 := 64) ((((cfg1.win 9).blk t).view.emb j) 0) k)
    congr 1
    funext a
    apply Fin.ext
    match a with
    | ⟨0, _⟩ =>
      show win1_1.index t (0 : Fin 2) * 5000 + 1 * (j 0).val = win1_9.index t (0 : Fin 2) * 5000 + 1 * (j 0).val
      rw [x1.1, e90]
    | ⟨1, _⟩ =>
      show win1_1.index t (1 : Fin 2) * 64 + 1 * k.val = k.val
      rw [x1.2]; omega
  · show V c main_v66 (((cfg1.win 2).blk t).view.emb (ix2 (n0 := 5000) (n1 := 64) (j 0) k))
      = V c main_v66 (ix2 (n0 := 50000) (n1 := 64) ((((cfg1.win 9).blk t).view.emb j) 0) k)
    congr 1
    funext a
    apply Fin.ext
    match a with
    | ⟨0, _⟩ =>
      show win1_2.index t (0 : Fin 2) * 5000 + 1 * (j 0).val = win1_9.index t (0 : Fin 2) * 5000 + 1 * (j 0).val
      rw [x2.1, e90]
    | ⟨1, _⟩ =>
      show win1_2.index t (1 : Fin 2) * 64 + 1 * k.val = k.val
      rw [x2.2]; omega
  · show V c main_v47 (((cfg1.win 3).blk t).view.emb (ix2 (n0 := 5000) (n1 := 64) (j 0) k))
      = V c main_v47 (ix2 (n0 := 50000) (n1 := 64) ((((cfg1.win 9).blk t).view.emb j) 0) k)
    congr 1
    funext a
    apply Fin.ext
    match a with
    | ⟨0, _⟩ =>
      show win1_3.index t (0 : Fin 2) * 5000 + 1 * (j 0).val = win1_9.index t (0 : Fin 2) * 5000 + 1 * (j 0).val
      rw [x3.1, e90]
    | ⟨1, _⟩ =>
      show win1_3.index t (1 : Fin 2) * 64 + 1 * k.val = k.val
      rw [x3.2]; omega
  · show V c main_v67 (((cfg1.win 4).blk t).view.emb (ix2 (n0 := 64) (n1 := 64) k (j 1)))
      = V c main_v67 (ix2 (n0 := 64) (n1 := 64) k ((((cfg1.win 9).blk t).view.emb j) 1))
    congr 1
    funext a
    apply Fin.ext
    match a with
    | ⟨0, _⟩ =>
      show win1_4.index t (0 : Fin 2) * 64 + 1 * k.val = k.val
      rw [x4.1]; omega
    | ⟨1, _⟩ =>
      show win1_4.index t (1 : Fin 2) * 64 + 1 * (j 1).val = win1_9.index t (1 : Fin 2) * 64 + 1 * (j 1).val
      rw [x4.2, e91]
  · show V c main_v68 (((cfg1.win 5).blk t).view.emb (ix2 (n0 := 64) (n1 := 64) k (j 1)))
      = V c main_v68 (ix2 (n0 := 64) (n1 := 64) k ((((cfg1.win 9).blk t).view.emb j) 1))
    congr 1
    funext a
    apply Fin.ext
    match a with
    | ⟨0, _⟩ =>
      show win1_5.index t (0 : Fin 2) * 64 + 1 * k.val = k.val
      rw [x5.1]; omega
    | ⟨1, _⟩ =>
      show win1_5.index t (1 : Fin 2) * 64 + 1 * (j 1).val = win1_9.index t (1 : Fin 2) * 64 + 1 * (j 1).val
      rw [x5.2, e91]
  · show V c main_v69 (((cfg1.win 6).blk t).view.emb (ix2 (n0 := 64) (n1 := 64) k (j 1)))
      = V c main_v69 (ix2 (n0 := 64) (n1 := 64) k ((((cfg1.win 9).blk t).view.emb j) 1))
    congr 1
    funext a
    apply Fin.ext
    match a with
    | ⟨0, _⟩ =>
      show win1_6.index t (0 : Fin 2) * 64 + 1 * k.val = k.val
      rw [x6.1]; omega
    | ⟨1, _⟩ =>
      show win1_6.index t (1 : Fin 2) * 64 + 1 * (j 1).val = win1_9.index t (1 : Fin 2) * 64 + 1 * (j 1).val
      rw [x6.2, e91]
  · show V c main_v70 (((cfg1.win 7).blk t).view.emb (ix2 (n0 := 64) (n1 := 64) k (j 1)))
      = V c main_v70 (ix2 (n0 := 64) (n1 := 64) k ((((cfg1.win 9).blk t).view.emb j) 1))
    congr 1
    funext a
    apply Fin.ext
    match a with
    | ⟨0, _⟩ =>
      show win1_7.index t (0 : Fin 2) * 64 + 1 * k.val = k.val
      rw [x7.1]; omega
    | ⟨1, _⟩ =>
      show win1_7.index t (1 : Fin 2) * 64 + 1 * (j 1).val = win1_9.index t (1 : Fin 2) * 64 + 1 * (j 1).val
      rw [x7.2, e91]
  · show V c main_v71 (((cfg1.win 8).blk t).view.emb (ix2 (n0 := 1) (n1 := 64) 0 (j 1)))
      = V c main_v71 (ix2 (n0 := 1) (n1 := 64) 0 ((((cfg1.win 9).blk t).view.emb j) 1))
    congr 1
    funext a
    apply Fin.ext
    match a with
    | ⟨0, _⟩ =>
      show win1_8.index t (0 : Fin 2) * 1 + 1 * 0 = 0
      rw [x8.1]
    | ⟨1, _⟩ =>
      show win1_8.index t (1 : Fin 2) * 64 + 1 * (j 1).val = win1_9.index t (1 : Fin 2) * 64 + 1 * (j 1).val
      rw [x8.2, e91]

/-- An index of the output array is in point `t`'s block iff each coordinate is in the block's range on its axis. -/
theorem linMem1 (t : Fin cfg1.N) (i : S50000x64.Idx) :
    i ∈ ((cfg1.win 9).blk t).view.set ↔ ∀ a : Fin 2, win1_9.index t a * S5000x64.size a ≤ (i a).val
      ∧ (i a).val < win1_9.index t a * S5000x64.size a + S5000x64.size a := by
  show i ∈ ((View.whole main_v72).slice (win1_9.rect t)).set ↔ _
  rw [View.set_slice_whole, Rect.mem_set_unit]
  exact Iff.rfl

/-- Row `r` of the output lies in the block of point `r / 5000`: the 10 blocks cover the array. -/
theorem linCover1 (i : S50000x64.Idx) :
    ∃ t : Fin cfg1.N, (cfg1.win 9).flush t = true ∧ i ∈ ((cfg1.win 9).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, -, -, -, e90, e91⟩ := linIdx1 t
  refine ⟨t, flush1_9 t, ?_⟩
  rw [linMem1]
  intro a
  match a with
  | ⟨0, _⟩ =>
    show win1_9.index t (0 : Fin 2) * 5000 ≤ (i 0).val ∧ (i 0).val < win1_9.index t (0 : Fin 2) * 5000 + 5000
    rw [e90, ht]; omega
  | ⟨1, _⟩ =>
    show win1_9.index t (1 : Fin 2) * 64 ≤ (i 1).val ∧ (i 1).val < win1_9.index t (1 : Fin 2) * 64 + 64
    rw [e91]; omega

/-- THE OUTPUT ARRAY of region 1 after its write-backs: the linear step of the whole arrays. -/
theorem lin1 (c : Dev nD) :
    (dat1 (F := Ideal) V c).arrAt 9 cfg1.N
      = Cert.Spec.linK (R := 50000) (V c main_v35) (V c main_v16) (V c main_v66) (V c main_v47) (V c main_v67) (V c main_v68) (V c main_v69) (V c main_v70) (V c main_v71) :=
  (dat1 (F := Ideal) V c).arrAt_eq_of_cover 9 _ (fun t _ => linFlushed1 V c t) linCover1

/-! ## Region 3 -/

/-- The body's stored value — the maximum of the accumulated sum and the zero splat — is the linear step of the
    loaded blocks: four products added in order, the bias row on every row, the maximum with zero. -/
theorem linPay3 (a0 a1 a2 a3 : Vec Ideal S5000x64 .f32) (w0 w1 w2 w3 : Vec Ideal S64x64 .f32) (b : Vec Ideal S1x64 .f32) :
    k3_pay1 (F := Ideal) (k3_pay2 a0 w0 a1 w1 a2 w2 a3 w3 b) (k3_pay3 (F := Ideal))
      = Cert.Spec.linK (R := 5000) a0 a1 a2 a3 w0 w1 w2 w3 b := by
  have hc : Contracts dot_S5000x64_S64x64_S5000x64_1_0_0_1_n_n := contracts_of_lists _ rfl rfl rfl rfl rfl rfl
  unfold k3_pay1 k3_pay2 k3_pay3
  simp only [shapeCast_self]
  funext j
  obtain ⟨p, q, rfl⟩ : ∃ (p : Fin 5000) (q : Fin 64), j = ix2 p q := ⟨j 0, j 1, eq_ix2 j⟩
  have e0 : (matmul dot_S5000x64_S64x64_S5000x64_1_0_0_1_n_n none (truncf .bf16 a0 bitsLt_bf16_f32) (truncf .bf16 w0 bitsLt_bf16_f32) (constant (F := Ideal) S5000x64 .f32 0x00000000#32) (ix2 (n0 := 5000) (n1 := 64) p q) : EReal) = matProd a0 w0 (ix2 p q) :=
    congrFun (matmul_zero_eq hc none (truncf .bf16 a0 bitsLt_bf16_f32) (truncf .bf16 w0 bitsLt_bf16_f32)) (ix2 p q)
  have e1 : (matmul dot_S5000x64_S64x64_S5000x64_1_0_0_1_n_n none (truncf .bf16 a1 bitsLt_bf16_f32) (truncf .bf16 w1 bitsLt_bf16_f32) (constant (F := Ideal) S5000x64 .f32 0x00000000#32) (ix2 (n0 := 5000) (n1 := 64) p q) : EReal) = matProd a1 w1 (ix2 p q) :=
    congrFun (matmul_zero_eq hc none (truncf .bf16 a1 bitsLt_bf16_f32) (truncf .bf16 w1 bitsLt_bf16_f32)) (ix2 p q)
  have e2 : (matmul dot_S5000x64_S64x64_S5000x64_1_0_0_1_n_n none (truncf .bf16 a2 bitsLt_bf16_f32) (truncf .bf16 w2 bitsLt_bf16_f32) (constant (F := Ideal) S5000x64 .f32 0x00000000#32) (ix2 (n0 := 5000) (n1 := 64) p q) : EReal) = matProd a2 w2 (ix2 p q) :=
    congrFun (matmul_zero_eq hc none (truncf .bf16 a2 bitsLt_bf16_f32) (truncf .bf16 w2 bitsLt_bf16_f32)) (ix2 p q)
  have e3 : (matmul dot_S5000x64_S64x64_S5000x64_1_0_0_1_n_n none (truncf .bf16 a3 bitsLt_bf16_f32) (truncf .bf16 w3 bitsLt_bf16_f32) (constant (F := Ideal) S5000x64 .f32 0x00000000#32) (ix2 (n0 := 5000) (n1 := 64) p q) : EReal) = matProd a3 w3 (ix2 p q) :=
    congrFun (matmul_zero_eq hc none (truncf .bf16 a3 bitsLt_bf16_f32) (truncf .bf16 w3 bitsLt_bf16_f32)) (ix2 p q)
  have eb : (broadcastTo S5000x64 b broadcasts_S1x64_S5000x64 (ix2 (n0 := 5000) (n1 := 64) p q) : EReal)
      = b (ix2 (n0 := 1) (n1 := 64) 0 q) := broadcastTo_1b_ab_apply b broadcasts_S1x64_S5000x64 p q
  have ez : (Scalar.ofBits (F := Ideal) .f32 0x00000000#32 : EReal) = 0 := Ideal.ofBits_zero_f32
  show max (((((matmul dot_S5000x64_S64x64_S5000x64_1_0_0_1_n_n none (truncf .bf16 a0 bitsLt_bf16_f32) (truncf .bf16 w0 bitsLt_bf16_f32) (constant (F := Ideal) S5000x64 .f32 0x00000000#32) (ix2 (n0 := 5000) (n1 := 64) p q) : EReal)
        + (matmul dot_S5000x64_S64x64_S5000x64_1_0_0_1_n_n none (truncf .bf16 a1 bitsLt_bf16_f32) (truncf .bf16 w1 bitsLt_bf16_f32) (constant (F := Ideal) S5000x64 .f32 0x00000000#32) (ix2 (n0 := 5000) (n1 := 64) p q) : EReal))
        + (matmul dot_S5000x64_S64x64_S5000x64_1_0_0_1_n_n none (truncf .bf16 a2 bitsLt_bf16_f32) (truncf .bf16 w2 bitsLt_bf16_f32) (constant (F := Ideal) S5000x64 .f32 0x00000000#32) (ix2 (n0 := 5000) (n1 := 64) p q) : EReal))
        + (matmul dot_S5000x64_S64x64_S5000x64_1_0_0_1_n_n none (truncf .bf16 a3 bitsLt_bf16_f32) (truncf .bf16 w3 bitsLt_bf16_f32) (constant (F := Ideal) S5000x64 .f32 0x00000000#32) (ix2 (n0 := 5000) (n1 := 64) p q) : EReal))
        + (broadcastTo S5000x64 b broadcasts_S1x64_S5000x64 (ix2 (n0 := 5000) (n1 := 64) p q) : EReal))
      (Scalar.ofBits (F := Ideal) .f32 0x00000000#32 : EReal)
    = max ((((matProd a0 w0 (ix2 p q) + matProd a1 w1 (ix2 p q)) + matProd a2 w2 (ix2 p q)) + matProd a3 w3 (ix2 p q))
        + b (ix2 (n0 := 1) (n1 := 64) 0 q)) 0
  rw [e0, e1, e2, e3, eb, ez]

/-- The index maps at a grid point: each aggregate's and the output's blocks are block `t` of their rows, each weight's
    and the bias's block is the whole array (decided over the 10 points). -/
theorem linIdx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = t.val ∧ win3_9.index t (1 : Fin 2) = 0) :=
  (by decide +kernel : ∀ t : Fin grid3.N, _)

set_option maxHeartbeats 2000000 in
/-- What point `t` writes back is block `t` of the linear step of the whole arrays. -/
theorem linFlushed3 (c : Dev nD) (t : Fin cfg3.N) :
    (dat3 (F := Ideal) V c).flushed 9 t
      = ((cfg3.win 9).blk t).view.read (Elt Ideal)
          (Cert.Spec.linK (R := 50000) (V c main_v104) (V c main_v85) (V c main_v135) (V c main_v116) (V c main_v136) (V c main_v137) (V c main_v138) (V c main_v139) (V c main_v140)) := by
  show (cfg3.win 9).cut (grid3.coords t) ((dat3 (F := Ideal) V c).after 9 t) = _
  rw [after3_9]
  unfold out3_9
  rw [View.canon_unit_zero linZeroOffsets]
  simp only [View.ld_unit_zero (S := S5000x64) linZeroOffsets, View.ld_unit_zero (S := S64x64) linZeroOffsets,
    View.ld_unit_zero (S := S1x64) linZeroOffsets]
  obtain ⟨x0, x1, x2, x3, x4, x5, x6, x7, x8, e90, e91⟩ := linIdx3 t
  funext j
  show k3_pay1 (F := Ideal) (k3_pay2 (iblk3 V c 0 t) (iblk3 V c 4 t) (iblk3 V c 1 t) (iblk3 V c 5 t) (iblk3 V c 2 t) (iblk3 V c 6 t) (iblk3 V c 3 t) (iblk3 V c 7 t) (iblk3 V c 8 t)) (k3_pay3 (F := Ideal)) j
    = Cert.Spec.linK (R := 50000) (V c main_v104) (V c main_v85) (V c main_v135) (V c main_v116) (V c main_v136) (V c main_v137) (V c main_v138) (V c main_v139) (V c main_v140) (((cfg3.win 9).blk t).view.emb j)
  refine (congrFun (linPay3 (iblk3 V c 0 t) (iblk3 V c 1 t) (iblk3 V c 2 t) (iblk3 V c 3 t) (iblk3 V c 4 t) (iblk3 V c 5 t) (iblk3 V c 6 t) (iblk3 V c 7 t) (iblk3 V c 8 t)) j).trans ?_
  refine linK_of_rows (R := 50000) (r := 5000) (V c main_v104) (V c main_v85) (V c main_v135) (V c main_v116) (V c main_v136) (V c main_v137) (V c main_v138) (V c main_v139) (V c main_v140)
    (iblk3 V c 0 t) (iblk3 V c 1 t) (iblk3 V c 2 t) (iblk3 V c 3 t) (iblk3 V c 4 t) (iblk3 V c 5 t) (iblk3 V c 6 t) (iblk3 V c 7 t) (iblk3 V c 8 t)
    j (((cfg3.win 9).blk t).view.emb j)
    (fun k => ?_) (fun k => ?_) (fun k => ?_) (fun k => ?_) (fun k => ?_) (fun k => ?_) (fun k => ?_) (fun k => ?_) ?_
  · show V c main_v104 (((cfg3.win 0).blk t).view.emb (ix2 (n0 := 5000) (n1 := 64) (j 0) k))
      = V c main_v104 (ix2 (n0 := 50000) (n1 := 64) ((((cfg3.win 9).blk t).view.emb j) 0) k)
    congr 1
    funext a
    apply Fin.ext
    match a with
    | ⟨0, _⟩ =>
      show win3_0.index t (0 : Fin 2) * 5000 + 1 * (j 0).val = win3_9.index t (0 : Fin 2) * 5000 + 1 * (j 0).val
      rw [x0.1, e90]
    | ⟨1, _⟩ =>
      show win3_0.index t (1 : Fin 2) * 64 + 1 * k.val = k.val
      rw [x0.2]; omega
  · show V c main_v85 (((cfg3.win 1).blk t).view.emb (ix2 (n0 := 5000) (n1 := 64) (j 0) k))
      = V c main_v85 (ix2 (n0 := 50000) (n1 := 64) ((((cfg3.win 9).blk t).view.emb j) 0) k)
    congr 1
    funext a
    apply Fin.ext
    match a with
    | ⟨0, _⟩ =>
      show win3_1.index t (0 : Fin 2) * 5000 + 1 * (j 0).val = win3_9.index t (0 : Fin 2) * 5000 + 1 * (j 0).val
      rw [x1.1, e90]
    | ⟨1, _⟩ =>
      show win3_1.index t (1 : Fin 2) * 64 + 1 * k.val = k.val
      rw [x1.2]; omega
  · show V c main_v135 (((cfg3.win 2).blk t).view.emb (ix2 (n0 := 5000) (n1 := 64) (j 0) k))
      = V c main_v135 (ix2 (n0 := 50000) (n1 := 64) ((((cfg3.win 9).blk t).view.emb j) 0) k)
    congr 1
    funext a
    apply Fin.ext
    match a with
    | ⟨0, _⟩ =>
      show win3_2.index t (0 : Fin 2) * 5000 + 1 * (j 0).val = win3_9.index t (0 : Fin 2) * 5000 + 1 * (j 0).val
      rw [x2.1, e90]
    | ⟨1, _⟩ =>
      show win3_2.index t (1 : Fin 2) * 64 + 1 * k.val = k.val
      rw [x2.2]; omega
  · show V c main_v116 (((cfg3.win 3).blk t).view.emb (ix2 (n0 := 5000) (n1 := 64) (j 0) k))
      = V c main_v116 (ix2 (n0 := 50000) (n1 := 64) ((((cfg3.win 9).blk t).view.emb j) 0) k)
    congr 1
    funext a
    apply Fin.ext
    match a with
    | ⟨0, _⟩ =>
      show win3_3.index t (0 : Fin 2) * 5000 + 1 * (j 0).val = win3_9.index t (0 : Fin 2) * 5000 + 1 * (j 0).val
      rw [x3.1, e90]
    | ⟨1, _⟩ =>
      show win3_3.index t (1 : Fin 2) * 64 + 1 * k.val = k.val
      rw [x3.2]; omega
  · show V c main_v136 (((cfg3.win 4).blk t).view.emb (ix2 (n0 := 64) (n1 := 64) k (j 1)))
      = V c main_v136 (ix2 (n0 := 64) (n1 := 64) k ((((cfg3.win 9).blk t).view.emb j) 1))
    congr 1
    funext a
    apply Fin.ext
    match a with
    | ⟨0, _⟩ =>
      show win3_4.index t (0 : Fin 2) * 64 + 1 * k.val = k.val
      rw [x4.1]; omega
    | ⟨1, _⟩ =>
      show win3_4.index t (1 : Fin 2) * 64 + 1 * (j 1).val = win3_9.index t (1 : Fin 2) * 64 + 1 * (j 1).val
      rw [x4.2, e91]
  · show V c main_v137 (((cfg3.win 5).blk t).view.emb (ix2 (n0 := 64) (n1 := 64) k (j 1)))
      = V c main_v137 (ix2 (n0 := 64) (n1 := 64) k ((((cfg3.win 9).blk t).view.emb j) 1))
    congr 1
    funext a
    apply Fin.ext
    match a with
    | ⟨0, _⟩ =>
      show win3_5.index t (0 : Fin 2) * 64 + 1 * k.val = k.val
      rw [x5.1]; omega
    | ⟨1, _⟩ =>
      show win3_5.index t (1 : Fin 2) * 64 + 1 * (j 1).val = win3_9.index t (1 : Fin 2) * 64 + 1 * (j 1).val
      rw [x5.2, e91]
  · show V c main_v138 (((cfg3.win 6).blk t).view.emb (ix2 (n0 := 64) (n1 := 64) k (j 1)))
      = V c main_v138 (ix2 (n0 := 64) (n1 := 64) k ((((cfg3.win 9).blk t).view.emb j) 1))
    congr 1
    funext a
    apply Fin.ext
    match a with
    | ⟨0, _⟩ =>
      show win3_6.index t (0 : Fin 2) * 64 + 1 * k.val = k.val
      rw [x6.1]; omega
    | ⟨1, _⟩ =>
      show win3_6.index t (1 : Fin 2) * 64 + 1 * (j 1).val = win3_9.index t (1 : Fin 2) * 64 + 1 * (j 1).val
      rw [x6.2, e91]
  · show V c main_v139 (((cfg3.win 7).blk t).view.emb (ix2 (n0 := 64) (n1 := 64) k (j 1)))
      = V c main_v139 (ix2 (n0 := 64) (n1 := 64) k ((((cfg3.win 9).blk t).view.emb j) 1))
    congr 1
    funext a
    apply Fin.ext
    match a with
    | ⟨0, _⟩ =>
      show win3_7.index t (0 : Fin 2) * 64 + 1 * k.val = k.val
      rw [x7.1]; omega
    | ⟨1, _⟩ =>
      show win3_7.index t (1 : Fin 2) * 64 + 1 * (j 1).val = win3_9.index t (1 : Fin 2) * 64 + 1 * (j 1).val
      rw [x7.2, e91]
  · show V c main_v140 (((cfg3.win 8).blk t).view.emb (ix2 (n0 := 1) (n1 := 64) 0 (j 1)))
      = V c main_v140 (ix2 (n0 := 1) (n1 := 64) 0 ((((cfg3.win 9).blk t).view.emb j) 1))
    congr 1
    funext a
    apply Fin.ext
    match a with
    | ⟨0, _⟩ =>
      show win3_8.index t (0 : Fin 2) * 1 + 1 * 0 = 0
      rw [x8.1]
    | ⟨1, _⟩ =>
      show win3_8.index t (1 : Fin 2) * 64 + 1 * (j 1).val = win3_9.index t (1 : Fin 2) * 64 + 1 * (j 1).val
      rw [x8.2, e91]

/-- An index of the output array is in point `t`'s block iff each coordinate is in the block's range on its axis. -/
theorem linMem3 (t : Fin cfg3.N) (i : S50000x64.Idx) :
    i ∈ ((cfg3.win 9).blk t).view.set ↔ ∀ a : Fin 2, win3_9.index t a * S5000x64.size a ≤ (i a).val
      ∧ (i a).val < win3_9.index t a * S5000x64.size a + S5000x64.size a := by
  show i ∈ ((View.whole main_v141).slice (win3_9.rect t)).set ↔ _
  rw [View.set_slice_whole, Rect.mem_set_unit]
  exact Iff.rfl

/-- Row `r` of the output lies in the block of point `r / 5000`: the 10 blocks cover the array. -/
theorem linCover3 (i : S50000x64.Idx) :
    ∃ t : Fin cfg3.N, (cfg3.win 9).flush t = true ∧ i ∈ ((cfg3.win 9).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, -, -, -, -, -, e90, e91⟩ := linIdx3 t
  refine ⟨t, flush3_9 t, ?_⟩
  rw [linMem3]
  intro a
  match a with
  | ⟨0, _⟩ =>
    show win3_9.index t (0 : Fin 2) * 5000 ≤ (i 0).val ∧ (i 0).val < win3_9.index t (0 : Fin 2) * 5000 + 5000
    rw [e90, ht]; omega
  | ⟨1, _⟩ =>
    show win3_9.index t (1 : Fin 2) * 64 ≤ (i 1).val ∧ (i 1).val < win3_9.index t (1 : Fin 2) * 64 + 64
    rw [e91]; omega

/-- THE OUTPUT ARRAY of region 3 after its write-backs: the linear step of the whole arrays. -/
theorem lin3 (c : Dev nD) :
    (dat3 (F := Ideal) V c).arrAt 9 cfg3.N
      = Cert.Spec.linK (R := 50000) (V c main_v104) (V c main_v85) (V c main_v135) (V c main_v116) (V c main_v136) (V c main_v137) (V c main_v138) (V c main_v139) (V c main_v140) :=
  (dat3 (F := Ideal) V c).arrAt_eq_of_cover 9 _ (fun t _ => linFlushed3 V c t) linCover3

end Cert.RegionValue

end
-- ==== Proof.RefValueLin.lean ====
/-
  The reference's linear algebra, read as the specification's.

  Three facts about the host's operations at the ideal values, for arbitrary arrays:
  the label transform `el · tw` is the plain matrix product; four 50000 × 64 arrays joined along the columns
  are the specification's `cat4`; and the product with the 256 × 64 weight, plus the bias repeated over the rows,
  cut off below at zero, is the specification's `linR`. From these, one whole layer of the reference in the host's
  operations (`refLayer`) is the specification's `layerR`.
-/
import proofs.«178492_j13073880449170_2_alg».proof.ReferenceIdeal
import proofs.«178492_j13073880449170_2_alg».proof.Proof.Gen.ReferenceIdeal
import proofs.«178492_j13073880449170_2_alg».proof.Proof.Spec
import proofs.«178492_j13073880449170_2_alg».proof.Proof.LibDotLists
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx Cert.Linear
open Cert.ReferenceIdeal Cert.ReferenceIdeal.Gen

/-- The label transform: the host's product of the 800000 × 2 labels with the 2 × 64 transform is the plain
    matrix product. -/
theorem refElt (el : FVec Ideal S800000x2 .f32) (tw : FVec Ideal S2x64 .f32) :
    Host.dotGeneral dot_S800000x2_S2x64_S800000x64_1_0_0_1_n_n none el tw
      = matProd (R := 800000) (K := 2) (N := 64) el tw :=
  dotGeneral_eq (contracts_of_lists (R := 800000) (K := 2) (N := 64) dot_S800000x2_S2x64_S800000x64_1_0_0_1_n_n rfl rfl rfl rfl rfl rfl)
    none .single el tw

/-- The product with the weight: the host's product of a 50000 × 256 array with the 256 × 64 weight is the plain
    matrix product. -/
theorem refDot (h : FVec Ideal S50000x256 .f32) (W : FVec Ideal S256x64 .f32) :
    Host.dotGeneral dot_S50000x256_S256x64_S50000x64_1_0_0_1_n_n none h W
      = matProd (R := 50000) (K := 256) (N := 64) h W :=
  dotGeneral_eq (contracts_of_lists (R := 50000) (K := 256) (N := 64) dot_S50000x256_S256x64_S50000x64_1_0_0_1_n_n rfl rfl rfl rfl rfl rfl)
    none .single h W

/-- Four 50000 × 64 arrays joined along the columns: column `64 n + j` is column `j` of the n-th. -/
theorem refCat (a0 a1 a2 a3 : FVec Ideal S50000x64 .f32) :
    concatenate S50000x256 1 [⟨S50000x64, a0⟩, ⟨S50000x64, a1⟩, ⟨S50000x64, a2⟩, ⟨S50000x64, a3⟩]
        concatenates_S50000x64_S50000x64_S50000x64_S50000x64_S50000x256_d1
      = Cert.Spec.cat4 (R := 50000) a0 a1 a2 a3 := by
  funext j
  unfold Cert.Spec.cat4
  have hj1 : (j 1).val < 256 := idx2_lt1 j
  by_cases h0 : (j 1).val < 64
  · rw [dif_pos h0]
    exact concatenate_apply_piece (t := S50000x256) (1 : Fin 2) ([⟨S50000x64, a0⟩, ⟨S50000x64, a1⟩, ⟨S50000x64, a2⟩, ⟨S50000x64, a3⟩] : List ((s : Shape) × (s.Idx → Ideal .f32))) concatenates_S50000x64_S50000x64_S50000x64_S50000x64_S50000x256_d1 j 0 (show (0 : Nat) < 4 by omega) S50000x64 a0 rfl rfl 0 rfl
      (ix2 (n0 := 50000) (n1 := 64) (j 0) ⟨(j 1).val, h0⟩)
      (fun b hb => match b, hb with
        | ⟨0, _⟩, _ => rfl
        | ⟨1, _⟩, hb => absurd rfl hb)
      (Nat.zero_add _)
  · rw [dif_neg h0]
    by_cases h1 : (j 1).val < 128
    · rw [dif_pos h1]
      exact concatenate_apply_piece (t := S50000x256) (1 : Fin 2) ([⟨S50000x64, a0⟩, ⟨S50000x64, a1⟩, ⟨S50000x64, a2⟩, ⟨S50000x64, a3⟩] : List ((s : Shape) × (s.Idx → Ideal .f32))) concatenates_S50000x64_S50000x64_S50000x64_S50000x64_S50000x256_d1 j 1 (show (1 : Nat) < 4 by omega) S50000x64 a1 rfl rfl 64 rfl
        (ix2 (n0 := 50000) (n1 := 64) (j 0) ⟨(j 1).val - 64, by omega⟩)
        (fun b hb => match b, hb with
          | ⟨0, _⟩, _ => rfl
          | ⟨1, _⟩, hb => absurd rfl hb)
        (show 64 + ((j 1).val - 64) = (j 1).val by omega)
    · rw [dif_neg h1]
      by_cases h2 : (j 1).val < 192
      · rw [dif_pos h2]
        exact concatenate_apply_piece (t := S50000x256) (1 : Fin 2) ([⟨S50000x64, a0⟩, ⟨S50000x64, a1⟩, ⟨S50000x64, a2⟩, ⟨S50000x64, a3⟩] : List ((s : Shape) × (s.Idx → Ideal .f32))) concatenates_S50000x64_S50000x64_S50000x64_S50000x64_S50000x256_d1 j 2 (show (2 : Nat) < 4 by omega) S50000x64 a2 rfl rfl 128 rfl
          (ix2 (n0 := 50000) (n1 := 64) (j 0) ⟨(j 1).val - 128, by omega⟩)
          (fun b hb => match b, hb with
            | ⟨0, _⟩, _ => rfl
            | ⟨1, _⟩, hb => absurd rfl hb)
          (show 128 + ((j 1).val - 128) = (j 1).val by omega)
      · rw [dif_neg h2]
        exact concatenate_apply_piece (t := S50000x256) (1 : Fin 2) ([⟨S50000x64, a0⟩, ⟨S50000x64, a1⟩, ⟨S50000x64, a2⟩, ⟨S50000x64, a3⟩] : List ((s : Shape) × (s.Idx → Ideal .f32))) concatenates_S50000x64_S50000x64_S50000x64_S50000x64_S50000x256_d1 j 3 (show (3 : Nat) < 4 by omega) S50000x64 a3 rfl rfl 192 rfl
          (ix2 (n0 := 50000) (n1 := 64) (j 0) ⟨(j 1).val - 192, by omega⟩)
          (fun b hb => match b, hb with
            | ⟨0, _⟩, _ => rfl
            | ⟨1, _⟩, hb => absurd rfl hb)
          (show 192 + ((j 1).val - 192) = (j 1).val by omega)

/-- The bias as a 1 × 64 row repeated over the 50000 rows, read at an entry: the bias at the entry's column. -/
theorem refBias (b : FVec Ideal S64 .f32) (i : S50000x64.Idx) :
    broadcastInDim S50000x64 ![0, 1] bcast_S1x64_S50000x64_0_1 (broadcastInDim S1x64 ![1] bcast_S64_S1x64_1 b) i
      = b (ix1 (n := 64) (i 1)) :=
  (broadcastInDim_apply _ bcast_S1x64_S50000x64_0_1 _ i (ix2 (n0 := 1) (n1 := 64) 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans
  (broadcastInDim_apply _ bcast_S64_S1x64_1 b (ix2 (n0 := 1) (n1 := 64) 0 (i 1)) (ix1 (n := 64) (i 1)) (fun a => match a with
    | ⟨0, _⟩ => by show (i 1).val = if (64 : Nat) = 1 then 0 else (i 1).val; rw [if_neg (by decide)]))

/-- The zero word repeated over a 50000 × 64 array is the extended real zero at every entry. -/
theorem refZero (i : S50000x64.Idx) :
    broadcastInDim S50000x64 ![] bcast_S_S50000x64 (constant (F := Ideal) S_ .f32 0x00000000#32) i = (0 : EReal) :=
  (broadcastInDim_apply _ bcast_S_S50000x64 _ i ix0 (fun a => a.elim0)).trans Ideal.ofBits_zero_f32

/-- The linear step: four aggregates joined, one product with the weight, the bias on every row, cut off below
    at zero. -/
theorem refLin (a0 a1 a2 a3 : FVec Ideal S50000x64 .f32) (W : FVec Ideal S256x64 .f32) (b : FVec Ideal S64 .f32) :
    maximumf (addf (Host.dotGeneral dot_S50000x256_S256x64_S50000x64_1_0_0_1_n_n none
          (concatenate S50000x256 1 [⟨S50000x64, a0⟩, ⟨S50000x64, a1⟩, ⟨S50000x64, a2⟩, ⟨S50000x64, a3⟩]
            concatenates_S50000x64_S50000x64_S50000x64_S50000x64_S50000x256_d1) W)
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
      = Cert.Spec.linR (R := 50000) (Cert.Spec.cat4 a0 a1 a2 a3) W b := by
  funext i
  rw [maximumf_apply, addf_apply, refDot, refCat, refBias, refZero]
  rfl

end Cert.RefSide

end
-- ==== Proof.RefValue.lean ====
/-
  The reference's value: what its two layers leave in the result array, as the specification's `netR` of the
  argument arrays.

  One layer of the reference, in the host's own operations, is written once (`refLayer`): the label transform, the
  four scatter-means of gathered node rows and of transformed labels, their concatenation along the columns, one product
  with the weight, the bias on every row, and the cut-off at zero. It equals the specification's `layerR` by the
  three facts about the host's linear algebra. The program's composed result is, by unfolding, this layer applied
  twice, and the program's run, read back operation by operation, ends with the result array at that term.
-/
import proofs.«178492_j13073880449170_2_alg».proof.Defs
import proofs.«178492_j13073880449170_2_alg».proof.Proof.Gen.ReferenceIdeal.Run
import proofs.«178492_j13073880449170_2_alg».proof.Proof.Gen.ReferenceIdeal.Read
import proofs.«178492_j13073880449170_2_alg».proof.Proof.Spec
import proofs.«178492_j13073880449170_2_alg».proof.Proof.RefValueLin

noncomputable section

namespace Cert.RefSide

open Idealize.ShloMosaic Idealize.ShloMosaic.TcCoe Idealize.SL.Sem Idealize.ShloMosaic.ValueIdx Cert.Linear
open Cert.ReferenceIdeal Cert.ReferenceIdeal.Gen

/-- One layer of the reference in the host's operations, on node features `x`. -/
def refLayer (x : FVec Ideal S50000x64 .f32) (ei : IVec S2x800000 32) (el : FVec Ideal S800000x2 .f32)
    (W : FVec Ideal S256x64 .f32) (tw : FVec Ideal S2x64 .f32) (b : FVec Ideal S64 .f32) : FVec Ideal S50000x64 .f32 :=
  maximumf (addf (Host.dotGeneral dot_S50000x256_S256x64_S50000x64_1_0_0_1_n_n none
        (concatenate S50000x256 1
          [⟨S50000x64, Cert.Spec.smean (Cert.Spec.take x (Cert.Spec.colOf ei)) (Cert.Spec.rowOf ei)⟩,
           ⟨S50000x64, Cert.Spec.smean (Host.dotGeneral dot_S800000x2_S2x64_S800000x64_1_0_0_1_n_n none el tw) (Cert.Spec.rowOf ei)⟩,
           ⟨S50000x64, Cert.Spec.smean (Cert.Spec.take x (Cert.Spec.rowOf ei)) (Cert.Spec.colOf ei)⟩,
           ⟨S50000x64, Cert.Spec.smean (Host.dotGeneral dot_S800000x2_S2x64_S800000x64_1_0_0_1_n_n none el tw) (Cert.Spec.colOf ei)⟩]
          concatenates_S50000x64_S50000x64_S50000x64_S50000x64_S50000x256_d1) W)
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- The reference's layer is the specification's, grouped as one product. -/
theorem refLayer_eq (x : FVec Ideal S50000x64 .f32) (ei : IVec S2x800000 32) (el : FVec Ideal S800000x2 .f32)
    (W : FVec Ideal S256x64 .f32) (tw : FVec Ideal S2x64 .f32) (b : FVec Ideal S64 .f32) :
    refLayer x ei el W tw b = Cert.Spec.layerR x (Cert.Spec.rowOf ei) (Cert.Spec.colOf ei) el W tw b := by
  unfold refLayer
  rw [refLin, refElt]
  rfl

/-- The program's composed result is the layer applied twice. -/
theorem res_eq_layers (m' : (ℓ : Loc nD τ sig) → Buf (Elt Ideal) ℓ) (c : Dev nD) :
    Cert.ReferenceIdeal.Value.res_main_v141 (F := Ideal) m' c
      = refLayer (refLayer (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
          (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  unfold Cert.ReferenceIdeal.Value.res_main_v141
  rfl

/-- The program's composed result is the specification's two layers of the argument arrays. -/
theorem res_eq (m' : (ℓ : Loc nD τ sig) → Buf (Elt Ideal) ℓ) (c : Dev nD) :
    Cert.ReferenceIdeal.Value.res_main_v141 (F := Ideal) m' c
      = Cert.Spec.netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) := by
  rw [res_eq_layers, refLayer_eq, refLayer_eq]
  rfl

/-- Every weakly fair execution of the reference terminates with the result array at the specification's `netR` of
    the argument arrays, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
      r.2.mem ((c.tc : Thread Cert.ReferenceIdeal.nD Cert.ReferenceIdeal.τ).loc Cert.ReferenceIdeal.main_v141) = Cert.Spec.netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run (Cert.ReferenceIdeal.defs (F := Ideal)) _ _).mono
    (fun _ h c => ⟨(h c).1.trans (res_eq m' c), (h c).2⟩)
    (Cert.ReferenceIdeal.Value.run m' ρ')

end Cert.RefSide

end
-- ==== Proof.lean ====
/-
  Two layers of an edge-opinion graph convolution: the Pallas kernel against its jnp reference, over the extended
  reals.

  One layer transforms the edge labels (el · tw, 800000 × 64), averages over each node's outgoing and incoming
  edges the transformed labels and the gathered features of the node at the edge's other end (four
  scatter-means, 50000 × 64 each), and applies a linear map with bias and max with zero to the four aggregates.
  The kernel and the reference run the SAME host operations for the gathers and scatter-means; they differ in two
  places only. The label transform is a matrix unit's product over blocks of 10000 edges in the kernel, one
  dot_general in the reference: the same sum of two products per entry. The linear step multiplies the four
  aggregates by the four 64-row blocks of the weight and adds the four products, over blocks of 5000 nodes, in the
  kernel; the reference lays the four aggregates side by side and multiplies once by the whole 256-row weight:
  entry by entry the same 256 products of extended reals, grouped into four runs of 64. Regrouping a finite
  sum holds in any commutative monoid, so no finiteness of the inputs is used, and the two results are equal
  element by element for all extended-real inputs.

  The pieces: `Spec` states both groupings as pure functions of the arguments (`netK`, `netR`) and `SpecLaw`
  proves them equal; `KRun` is the kernel's run with the result buffer kept, `KHost0/1/3` read the three host
  stretches, `RegionValueElt/Lin` read what each region leaves in its output array, and `KFold` follows the
  buffer contents through the seven segments to `netK` of the arguments; `RefValue` reads the reference's run as
  `netR` of the arguments. The three frames are the generated ones (the reference's from its run); the idealization
  rewrote nothing, so `preserves` is trivial.
-/
import proofs.«178492_j13073880449170_2_alg».proof.Defs
import proofs.«178492_j13073880449170_2_alg».proof.Proof.Gen.Kernel
import proofs.«178492_j13073880449170_2_alg».proof.Proof.Gen.Kernel.Frame
import proofs.«178492_j13073880449170_2_alg».proof.Proof.Gen.KernelIdeal
import proofs.«178492_j13073880449170_2_alg».proof.Proof.Gen.KernelIdeal.Frame
import proofs.«178492_j13073880449170_2_alg».proof.Proof.Gen.ReferenceIdeal
import proofs.«178492_j13073880449170_2_alg».proof.Proof.Gen.Pre_finite_inputs
import proofs.«178492_j13073880449170_2_alg».proof.Proof.SpecLaw
import proofs.«178492_j13073880449170_2_alg».proof.Proof.KRun
import proofs.«178492_j13073880449170_2_alg».proof.Proof.KFold
import proofs.«178492_j13073880449170_2_alg».proof.Proof.RegionValueElt
import proofs.«178492_j13073880449170_2_alg».proof.Proof.RegionValueLin
import proofs.«178492_j13073880449170_2_alg».proof.Proof.RefValue

noncomputable section

namespace Cert.Proof

open Idealize.ShloMosaic Idealize.SL.Sem

/-- What each of the kernel's four regions leaves in its output array. -/
theorem regionValues : Cert.KFold.RegionValues :=
  ⟨Cert.RegionValue.elt0, Cert.RegionValue.lin1, Cert.RegionValue.elt2, Cert.RegionValue.lin3⟩

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.RefSide.run m ρ)

/-- Both programs end with the result array at the two-layer network of the arguments: the kernel's grouping
    (`netK`) read off its run, the reference's (`netR`) off its own, the arguments agreeing, and the two groupings
    one function (`net_eq`). -/
theorem algebraic : Cert.algebraic_KernelIdeal_ReferenceIdeal := by
  intro m ρ m' ρ' _ hagree
  refine ⟨fun c => Cert.Spec.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KFold.W7_result m ρ c regionValues), (h c).2⟩)
      (Cert.KernelIdeal.KRun.run m ρ)
  · refine (θ_run Cert.ReferenceIdeal.defs _ _).mono (fun _ h c => ⟨(h c).1.trans ?_, (h c).2⟩)
      (Cert.RefSide.run m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2,
      Cert.Spec.net_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
